-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S50000x96 .f32) (main_arg1 : IVec S2x800000 32) (main_arg2 : FVec F S96x96 .f32) (main_arg3 : FVec F S96 .f32) (main_arg4 : FVec F S96x96 .f32) (main_arg5 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x96 : Shape := ⟨2, ![5000, 96]⟩
abbrev S5000x1 : Shape := ⟨2, ![5000, 1]⟩
abbrev S850000x96 : Shape := ⟨2, ![850000, 96]⟩
abbrev S1x96 : Shape := ⟨2, ![1, 96]⟩

abbrev nBuf : Space → Nat
  | .hbm => 57
  | .vmem => 22
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x96, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x96, .f32⟩
  | .hbm, ⟨38, _⟩ => ⟨S_, .f32⟩
  | .hbm, ⟨39, _⟩ => ⟨S50000x96, .f32⟩
  | .hbm, ⟨40, _⟩ => ⟨S850000x1, .i32⟩
  | .hbm, ⟨41, _⟩ => ⟨S50000x96, .f32⟩
  | .hbm, ⟨42, _⟩ => ⟨S50000x96, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x96, .f32⟩
  | .hbm, ⟨52, _⟩ => ⟨S_, .f32⟩
  | .hbm, ⟨53, _⟩ => ⟨S50000x96, .f32⟩
  | .hbm, ⟨54, _⟩ => ⟨S850000x1, .i32⟩
  | .hbm, ⟨55, _⟩ => ⟨S50000x96, .f32⟩
  | .hbm, ⟨56, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x1, .f32⟩
  | .local _ .vmem, ⟨4, _⟩ => ⟨S5000x1, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S96, .f32⟩
  | .local _ .vmem, ⟨10, _⟩ => ⟨S96x96, .f32⟩
  | .local _ .vmem, ⟨11, _⟩ => ⟨S5000x1, .f32⟩
  | .local _ .vmem, ⟨12, _⟩ => ⟨S5000x1, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S96, .f32⟩
  | .local _ .vmem, ⟨18, _⟩ => ⟨S5000x1, .f32⟩
  | .local _ .vmem, ⟨19, _⟩ => ⟨S5000x1, .f32⟩
  | .local _ .vmem, ⟨20, _⟩ => ⟨S5000x96, .f32⟩
  | .local _ .vmem, ⟨21, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  bcast_S_S50000x96 : S_.BroadcastsInDim S50000x96 (![] : Fin 0 → Fin S50000x96.rank)
  inb_S96_S96_0 : ∀ a, (![0] : Fin 1 → Nat) a + S96.size a ≤ S96.size a
  h_S96 : 0 < S96.numel
  shapeCasts_S96_S1x96 : S96.ShapeCasts S1x96
  shapeCasts_S1x96_S1x96 : S1x96.ShapeCasts S1x96
  broadcasts_S1x96_S5000x96 : S1x96.Broadcasts S5000x96
  shapeCasts_S5000x96_S5000x96 : S5000x96.ShapeCasts S5000x96
  scatter_S50000_S850000x1_S850000_n_0_0_1_wf : ScatterDims.WF S50000 S850000x1 S850000 [] [0] [0] 1
  dot_S5000x96_S96x96_S5000x96_1_0_0_1_n_n_wf : DotDims.WF S5000x96 S96x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96.size a ≤ S96.size a
  hwx1_1 : ∀ i : grid1.Coords, EltTy.bits .f32 = 32 ∨ (Rect.block (s := S96) S96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96.size a ≤ S96.size a
  hwx2_1 : ∀ i : grid2.Coords, EltTy.bits .f32 = 32 ∨ (Rect.block (s := S96) S96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩

abbrev nBuf : Space → Nat
  | .hbm => 128
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x96, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x96, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | .hbm, ⟨69, _⟩ => ⟨S50000x96, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S850000x1, .f32⟩
  | .hbm, ⟨107, _⟩ => ⟨S_, .i32⟩
  | .hbm, ⟨108, _⟩ => ⟨S850000, .i32⟩
  | .hbm, ⟨109, _⟩ => ⟨S850000, .i1⟩
  | .hbm, ⟨110, _⟩ => ⟨S_, .i32⟩
  | .hbm, ⟨111, _⟩ => ⟨S850000, .i32⟩
  | .hbm, ⟨112, _⟩ => ⟨S850000, .i32⟩
  | .hbm, ⟨113, _⟩ => ⟨S850000, .i32⟩
  | .hbm, ⟨114, _⟩ => ⟨S850000x1, .i32⟩
  | .hbm, ⟨115, _⟩ => ⟨S850000x96, .f32⟩
  | .hbm, ⟨116, _⟩ => ⟨S850000x96, .f32⟩
  | .hbm, ⟨117, _⟩ => ⟨S850000x96, .f32⟩
  | .hbm, ⟨118, _⟩ => ⟨S_, .f32⟩
  | .hbm, ⟨119, _⟩ => ⟨S50000x96, .f32⟩
  | .hbm, ⟨120, _⟩ => ⟨S850000x1, .i32⟩
  | .hbm, ⟨121, _⟩ => ⟨S50000x96, .f32⟩
  | .hbm, ⟨122, _⟩ => ⟨S1x96, .f32⟩
  | .hbm, ⟨123, _⟩ => ⟨S50000x96, .f32⟩
  | .hbm, ⟨124, _⟩ => ⟨S50000x96, .f32⟩
  | .hbm, ⟨125, _⟩ => ⟨S_, .f32⟩
  | .hbm, ⟨126, _⟩ => ⟨S50000x96, .f32⟩
  | .hbm, ⟨127, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  dot_S50000x96_S96x96_S50000x96_1_0_0_1_n_n_wf : DotDims.WF S50000x96 S96x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

class Facts : Prop extends Facts₀ where

variable [Facts]
-- ==== Proof.KernelRun.lean ====
/-
  The idealized kernel's run with its result named.

  The program is eight segments: host operations, then the first call's region, host operations, the second region,
  host operations, the third region. The buffer contents at each boundary are a fold through those segments
  (`W0` … `W8` of the frame module: a stretch of host operations applies them in order; a region leaves its arrays at
  what its blocks' write-backs give and every other buffer as it was). Every weakly fair execution terminates with
  every buffer that outlives a region at the last boundary's contents `W8`. The frame statement reads the six argument
  arrays off that state; read at the result buffer as well, the same run says what the program returns: `W8` at the
  result buffer, which the modules on the boundaries' values unwind region by region.
-/
import proofs.«128793_j4432406249964_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, with the
    result buffer at the last boundary's contents and the six argument arrays as launched. -/
theorem run_result : θ_run defs (onTc (τ := τ) (main (F := F))) ⟨m, fun _ => 0, ρ⟩ (fun r => ∀ c : Dev nD,
      r.2.mem ((c.tc : Thread nD τ).loc main_v38) = W8 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v38 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Gen

end
-- ==== Proof.KernelBoundary.lean ====
/-
  What the buffers hold at the boundaries between the program's segments, for the few buffers the result depends on.

  The program alternates stretches of host operations with the three regions. Through a stretch a buffer either is the
  result of one of its operations — then it holds that operation's function of the operands' contents — or is written by
  none and keeps what it held. Through a region an output window's array ends at what the blocks' write-backs leave, an
  input window's array is read only, and every other buffer is untouched.

  The buffers that matter: the two vectors of edge endpoints `s` (sources) and `d` (targets), computed once by the first
  stretch; the per-node scale, a vector made by the first two stretches and cast to a column by the third; the weights and
  biases, which are arguments; and, per layer, the region's output, from which the next stretch gathers the rows `s` names
  and scatter-adds them into the rows `d` names (`hostAgg`).
-/
import proofs.«128793_j4432406249964_2_alg».proof.Proof.Gen.KernelIdeal.Frame
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem
open Idealize.ShloMosaic.Pipeline (Dat)

variable {F : FTy → Type} [FloatOps F]

/-! ## One layer's host step -/

/-- The index column a gather is given: the endpoint words normalised (a negative one has the extent added), as a column. -/
def gcol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Gather the rows of `h` the sources name, and add each gathered row into the row its target names, from zero. -/
def hostAgg (sv dv : IVec S850000 32) (h : FVec F S50000x96 .f32) : FVec F S50000x96 .f32 :=
  Host.scatterAdd scatter_S50000x96_S850000x1_S850000x96_1_0_0_1
    (broadcastInDim S50000x96 ![] bcast_S_S50000x96 (constant S_ .f32 0x00000000#32))
    (broadcastInDim S850000x1 ![0] bcast_S850000_S850000x1_0 dv)
    (Host.gather gather_S50000x96_S850000x1_S850000x96_1_0_n_n_0_1_196 h (gcol sv))

variable (m : (ℓ : Loc nD τ sig) → Buf (Elt F) ℓ) (ρ : Dev nD → PrngReg)

/-- A buffer that no operation of a stretch writes keeps its contents through the stretch. -/
macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Entering the third region (after the third stretch of gathers and scatters) -/

theorem W7_v37 (c : Dev nD) : W7 m ρ c (Proc.devRef .tc main_v37)
    = hostAgg (W6 m ρ c (Proc.devRef .tc main_v5)) (W6 m ρ c (Proc.devRef .tc main_v6)) (W6 m ρ c (Proc.devRef .tc main_v27)) := by
  show StableHlo.after hostOps2 (W6 m ρ c) (Proc.devRef .tc main_v37) = _
  after_results
  rfl

theorem W7_v15 (c : Dev nD) : W7 m ρ c (Proc.devRef .tc main_v15) = W6 m ρ c (Proc.devRef .tc main_v15) := by
  unwritten hostOps2

/-- The last bias is an input window of the third region, which reads it and leaves it; it is as launched at the end. -/
theorem W7_arg5 (c : Dev nD) : W7 m ρ c (Proc.devRef .tc main_arg5) = m ((c : Thread nD τ).loc main_arg5) :=
  ((W8_arr m ρ c 1).trans (((dat2 (V7 m ρ) c).arrAt_in 1 rfl _).trans (A_eq2 (V7 m ρ) c 1))).symm.trans (W8_main_arg5 m ρ c)

/-! ## Leaving the second region -/

theorem W6_v27 (c : Dev nD) : W6 m ρ c (Proc.devRef .tc main_v27) = (dat1 (V5 m ρ) c).arrAt 4 cfg1.N := W6_arr m ρ c 4
theorem W6_v5 (c : Dev nD) : W6 m ρ c (Proc.devRef .tc main_v5) = W5 m ρ c (Proc.devRef .tc main_v5) := W6_of_ne m ρ c main_v5 (by decide)
theorem W6_v6 (c : Dev nD) : W6 m ρ c (Proc.devRef .tc main_v6) = W5 m ρ c (Proc.devRef .tc main_v6) := W6_of_ne m ρ c main_v6 (by decide)
theorem W6_v15 (c : Dev nD) : W6 m ρ c (Proc.devRef .tc main_v15) = W5 m ρ c (Proc.devRef .tc main_v15) :=
  (W6_arr m ρ c 3).trans (((dat1 (V5 m ρ) c).arrAt_in 3 rfl _).trans (A_eq1 (V5 m ρ) c 3))

/-! ## Entering the second region -/

theorem W5_v26 (c : Dev nD) : W5 m ρ c (Proc.devRef .tc main_v26)
    = hostAgg (W4 m ρ c (Proc.devRef .tc main_v5)) (W4 m ρ c (Proc.devRef .tc main_v6)) (W4 m ρ c (Proc.devRef .tc main_v16)) := by
  show StableHlo.after hostOps1 (W4 m ρ c) (Proc.devRef .tc main_v26) = _
  after_results
  rfl

theorem W5_v5 (c : Dev nD) : W5 m ρ c (Proc.devRef .tc main_v5) = W4 m ρ c (Proc.devRef .tc main_v5) := by unwritten hostOps1
theorem W5_v6 (c : Dev nD) : W5 m ρ c (Proc.devRef .tc main_v6) = W4 m ρ c (Proc.devRef .tc main_v6) := by unwritten hostOps1
theorem W5_v15 (c : Dev nD) : W5 m ρ c (Proc.devRef .tc main_v15) = W4 m ρ c (Proc.devRef .tc main_v15) := by unwritten hostOps1

/-- The second layer's bias and weights are as launched when the second region is entered: they are as launched at the end,
    and nothing between writes them. -/
theorem W5_arg3 (c : Dev nD) : W5 m ρ c (Proc.devRef .tc main_arg3) = m ((c : Thread nD τ).loc main_arg3) := by
  have h8 := W8_main_arg3 m ρ c
  have h87 : W8 m ρ c (Proc.devRef .tc main_arg3) = W7 m ρ c (Proc.devRef .tc main_arg3) := W8_of_ne m ρ c main_arg3 (by decide)
  have h76 : W7 m ρ c (Proc.devRef .tc main_arg3) = W6 m ρ c (Proc.devRef .tc main_arg3) := by unwritten hostOps2
  have h65 : W6 m ρ c (Proc.devRef .tc main_arg3) = W5 m ρ c (Proc.devRef .tc main_arg3) :=
    (W6_arr m ρ c 1).trans (((dat1 (V5 m ρ) c).arrAt_in 1 rfl _).trans (A_eq1 (V5 m ρ) c 1))
  exact (h65.symm.trans (h76.symm.trans h87.symm)).trans h8

theorem W5_arg4 (c : Dev nD) : W5 m ρ c (Proc.devRef .tc main_arg4) = m ((c : Thread nD τ).loc main_arg4) := by
  have h8 := W8_main_arg4 m ρ c
  have h87 : W8 m ρ c (Proc.devRef .tc main_arg4) = W7 m ρ c (Proc.devRef .tc main_arg4) := W8_of_ne m ρ c main_arg4 (by decide)
  have h76 : W7 m ρ c (Proc.devRef .tc main_arg4) = W6 m ρ c (Proc.devRef .tc main_arg4) := by unwritten hostOps2
  have h65 : W6 m ρ c (Proc.devRef .tc main_arg4) = W5 m ρ c (Proc.devRef .tc main_arg4) :=
    (W6_arr m ρ c 2).trans (((dat1 (V5 m ρ) c).arrAt_in 2 rfl _).trans (A_eq1 (V5 m ρ) c 2))
  exact (h65.symm.trans (h76.symm.trans h87.symm)).trans h8

/-! ## Leaving the first region -/

theorem W4_v16 (c : Dev nD) : W4 m ρ c (Proc.devRef .tc main_v16) = (dat0 (V3 m ρ) c).arrAt 3 cfg0.N := W4_arr m ρ c 3
theorem W4_v5 (c : Dev nD) : W4 m ρ c (Proc.devRef .tc main_v5) = W3 m ρ c (Proc.devRef .tc main_v5) := W4_of_ne m ρ c main_v5 (by decide)
theorem W4_v6 (c : Dev nD) : W4 m ρ c (Proc.devRef .tc main_v6) = W3 m ρ c (Proc.devRef .tc main_v6) := W4_of_ne m ρ c main_v6 (by decide)
theorem W4_v15 (c : Dev nD) : W4 m ρ c (Proc.devRef .tc main_v15) = W3 m ρ c (Proc.devRef .tc main_v15) :=
  (W4_arr m ρ c 2).trans (((dat0 (V3 m ρ) c).arrAt_in 2 rfl _).trans (A_eq0 (V3 m ρ) c 2))

/-! ## Entering the first region -/

/-- The scale enters the regions as a column: the vector the second stretch leaves, cast. -/
theorem W3_v15 (c : Dev nD) : W3 m ρ c (Proc.devRef .tc main_v15)
    = shapeCast S50000x1 (W2 m ρ c (Proc.devRef .tc main_v14)) shapeCasts_S50000_S50000x1 := by
  show StableHlo.after hostOps0_2 (W2 m ρ c) (Proc.devRef .tc main_v15)
    = shapeCast S50000x1 (W2 m ρ c (Proc.devRef .tc main_v14)) shapeCasts_S50000_S50000x1
  generalize W2 m ρ c = X
  after_results
  rfl

theorem W3_v5 (c : Dev nD) : W3 m ρ c (Proc.devRef .tc main_v5) = W1 m ρ c (Proc.devRef .tc main_v5) := by
  have h32 : W3 m ρ c (Proc.devRef .tc main_v5) = W2 m ρ c (Proc.devRef .tc main_v5) := by unwritten hostOps0_2
  have h21 : W2 m ρ c (Proc.devRef .tc main_v5) = W1 m ρ c (Proc.devRef .tc main_v5) := by unwritten hostOps0_1
  exact h32.trans h21

theorem W3_v6 (c : Dev nD) : W3 m ρ c (Proc.devRef .tc main_v6) = W1 m ρ c (Proc.devRef .tc main_v6) := by
  have h32 : W3 m ρ c (Proc.devRef .tc main_v6) = W2 m ρ c (Proc.devRef .tc main_v6) := by unwritten hostOps0_2
  have h21 : W2 m ρ c (Proc.devRef .tc main_v6) = W1 m ρ c (Proc.devRef .tc main_v6) := by unwritten hostOps0_1
  exact h32.trans h21

/-- The features and the first layer's weights are as launched when the first region is entered. -/
theorem W3_arg0 (c : Dev nD) : W3 m ρ c (Proc.devRef .tc main_arg0) = m ((c : Thread nD τ).loc main_arg0) := by
  have h32 : W3 m ρ c (Proc.devRef .tc main_arg0) = W2 m ρ c (Proc.devRef .tc main_arg0) := by unwritten hostOps0_2
  have h21 : W2 m ρ c (Proc.devRef .tc main_arg0) = W1 m ρ c (Proc.devRef .tc main_arg0) := by unwritten hostOps0_1
  have h10 : W1 m ρ c (Proc.devRef .tc main_arg0) = W0 m ρ c (Proc.devRef .tc main_arg0) := by unwritten hostOps0
  exact (h32.trans (h21.trans h10)).trans rfl

theorem W3_arg2 (c : Dev nD) : W3 m ρ c (Proc.devRef .tc main_arg2) = m ((c : Thread nD τ).loc main_arg2) := by
  have h32 : W3 m ρ c (Proc.devRef .tc main_arg2) = W2 m ρ c (Proc.devRef .tc main_arg2) := by unwritten hostOps0_2
  have h21 : W2 m ρ c (Proc.devRef .tc main_arg2) = W1 m ρ c (Proc.devRef .tc main_arg2) := by unwritten hostOps0_1
  have h10 : W1 m ρ c (Proc.devRef .tc main_arg2) = W0 m ρ c (Proc.devRef .tc main_arg2) := by unwritten hostOps0
  exact (h32.trans (h21.trans h10)).trans rfl

/-! ## The scale column and the endpoint vectors wherever a later segment reads them -/

/-- The scale column is the same at every region's entry: only the third stretch writes it. -/
theorem V5_v15 (c : Dev nD) : W5 m ρ c (Proc.devRef .tc main_v15) = W3 m ρ c (Proc.devRef .tc main_v15) :=
  (W5_v15 m ρ c).trans (W4_v15 m ρ c)
theorem V7_v15 (c : Dev nD) : W7 m ρ c (Proc.devRef .tc main_v15) = W3 m ρ c (Proc.devRef .tc main_v15) :=
  (W7_v15 m ρ c).trans ((W6_v15 m ρ c).trans (V5_v15 m ρ c))

/-- The sources and the targets are what the first stretch computed, wherever they are read. -/
theorem W4_s (c : Dev nD) : W4 m ρ c (Proc.devRef .tc main_v5) = W1 m ρ c (Proc.devRef .tc main_v5) := (W4_v5 m ρ c).trans (W3_v5 m ρ c)
theorem W4_d (c : Dev nD) : W4 m ρ c (Proc.devRef .tc main_v6) = W1 m ρ c (Proc.devRef .tc main_v6) := (W4_v6 m ρ c).trans (W3_v6 m ρ c)
theorem W6_s (c : Dev nD) : W6 m ρ c (Proc.devRef .tc main_v5) = W1 m ρ c (Proc.devRef .tc main_v5) :=
  (W6_v5 m ρ c).trans ((W5_v5 m ρ c).trans (W4_s m ρ c))
theorem W6_d (c : Dev nD) : W6 m ρ c (Proc.devRef .tc main_v6) = W1 m ρ c (Proc.devRef .tc main_v6) :=
  (W6_v6 m ρ c).trans ((W5_v6 m ρ c).trans (W4_d m ρ c))

end Cert.KernelIdeal.Boundary

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.RegionPayload.lean ====
/-
  The values the three kernel bodies store, read at an entry.

  Each body works on a block of 5000 node rows by 96 features.  Write `s` for the block's per-node scale
  column (5000 × 1), `w` for a 96 × 96 weight matrix and `b` for a bias vector of length 96.

  * first body:   (x · w) (p, j) · s p                       = (∑ q, x (p, q) · w (q, j)) · s p
  * second body:  (relu (h · s + b) · w) (p, j) · s p         = (∑ q, max (h (p, q) · s p + b q) 0 · w (q, j)) · s p
  * third body:   relu (h · s + b) (p, j)                     = max (h (p, j) · s p + b j) 0

  On the extended reals the narrowing of a matrix product's operands to a shorter float format is the identity, the
  product into a zero accumulator is the plain sum over the contracted axis, a cast of an array to its own shape is
  the identity, the column `s` broadcast along the rows reads `s p`, and the bias cast to a row and broadcast down
  the rows reads `b j`.
-/
import proofs.«128793_j4432406249964_2_alg».proof.Proof.Gen.KernelIdeal.Skeleton
import proofs.«128793_j4432406249964_2_alg».proof.Proof.LibPlainDot
import proofs.«128793_j4432406249964_2_alg».proof.Proof.LibKeepdims
import proofs.«128793_j4432406249964_2_alg».proof.Proof.LibRowBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Idealize.ShloMosaic Idealize.ShloMosaic.ValueIdx Cert.KernelIdeal

/-! ## The layout steps shared by the bodies -/

/-- The scale column, cast twice to its own shape and broadcast along the 96 feature columns, reads at `(p, j)` the
    column's entry of row `p`. -/
theorem scaleCol_apply (s : Vec Ideal S5000x1 .f32) (h : S5000x1.ShapeCasts S5000x1) (hb : S5000x1.Broadcasts S5000x96)
    (p : Fin 5000) (j : Fin 96) :
    broadcastTo S5000x96 (shapeCast S5000x1 (shapeCast S5000x1 s h) h) hb (ix2 p j) = s (ix2 p (0 : Fin 1)) := by
  rw [shapeCast_self, shapeCast_self]
  exact Cert.LibKeepdims.broadcastTo_a1_ab_apply s hb p j

/-- The bias vector, cast to a row, cast to its own shape and broadcast down the 5000 rows, reads at `(p, j)` the
    vector's entry `j`. -/
theorem biasRow_apply (b : Vec Ideal S96 .f32) (h1 : S96.ShapeCasts S1x96) (h2 : S1x96.ShapeCasts S1x96)
    (hb : S1x96.Broadcasts S5000x96) (p : Fin 5000) (j : Fin 96) :
    broadcastTo S5000x96 (shapeCast S1x96 (shapeCast S1x96 b h1) h2) hb (ix2 p j) = b (ix1 j) := by
  rw [shapeCast_self]
  refine (Cert.LibRowBroadcast.broadcastTo_1b_ab_apply _ hb p j).trans ?_
  exact shapeCast_a_1a_apply b h1 (0 : Fin 1) j

/-- The rectified pre-activation of the second and third bodies at `(p, j)`: the block entry scaled by its row's
    scale, plus the bias entry, cut below at zero. -/
theorem relu_apply (hblk : Vec Ideal S5000x96 .f32) (s : Vec Ideal S5000x1 .f32) (b : Vec Ideal S96 .f32)
    (h : S5000x1.ShapeCasts S5000x1) (hb : S5000x1.Broadcasts S5000x96)
    (h1 : S96.ShapeCasts S1x96) (h2 : S1x96.ShapeCasts S1x96) (hb' : S1x96.Broadcasts S5000x96)
    (h3 : S5000x96.ShapeCasts S5000x96) (p : Fin 5000) (j : Fin 96) :
    maximumf (addf (mulf (shapeCast S5000x96 hblk h3) (broadcastTo S5000x96 (shapeCast S5000x1 (shapeCast S5000x1 s h) h) hb))
        (broadcastTo S5000x96 (shapeCast S1x96 (shapeCast S1x96 b h1) h2) hb'))
      (broadcast S5000x96 (Scalar.ofBits (F := Ideal) .f32 0x00000000#32)) (ix2 p j)
      = max (hblk (ix2 p j) * s (ix2 p (0 : Fin 1)) + b (ix1 j)) 0 := by
  rw [shapeCast_self hblk h3]
  show max (hblk (ix2 p j) * broadcastTo S5000x96 (shapeCast S5000x1 (shapeCast S5000x1 s h) h) hb (ix2 p j)
      + broadcastTo S5000x96 (shapeCast S1x96 (shapeCast S1x96 b h1) h2) hb' (ix2 p j)) (Ideal.ofBits .f32 0x00000000#32) = _
  rw [scaleCol_apply, biasRow_apply, Ideal.ofBits_zero_f32]

/-! ## The three stored values -/

/-- First body: the block times the weights, each row scaled by its node's scale. -/
theorem pay0_apply (x : Vec Ideal S5000x96 .f32) (w : Vec Ideal S96x96 .f32) (s : Vec Ideal S5000x1 .f32)
    (p : Fin 5000) (j : Fin 96) :
    Gen.k0_pay1 (F := Ideal) x w s (ix2 p j) = (∑ q : Fin 96, x (ix2 p q) * w (ix2 q j)) * s (ix2 p (0 : Fin 1)) := by
  unfold Gen.k0_pay1
  refine congrArg₂ (· * ·) ?_ ?_
  · exact Cert.PlainDot.matmul_zero_ix2 _ rfl none _ _ p j
  · exact scaleCol_apply s _ _ p j

/-- Second body: the rectified pre-activation times the weights, each row scaled by its node's scale. -/
theorem pay1_apply (s : Vec Ideal S5000x1 .f32) (b : Vec Ideal S96 .f32) (hblk : Vec Ideal S5000x96 .f32)
    (w : Vec Ideal S96x96 .f32) (s' : Vec Ideal S5000x1 .f32) (p : Fin 5000) (j : Fin 96) :
    Gen.k1_pay1 (F := Ideal) s b hblk w s' (ix2 p j)
      = (∑ q : Fin 96, max (hblk (ix2 p q) * s (ix2 p (0 : Fin 1)) + b (ix1 q)) 0 * w (ix2 q j)) * s' (ix2 p (0 : Fin 1)) := by
  unfold Gen.k1_pay1
  refine congrArg₂ (· * ·) ?_ ?_
  · refine (Cert.PlainDot.matmul_zero_ix2 _ rfl none _ _ p j).trans ?_
    refine Finset.sum_congr rfl fun q _ => congrArg (· * w (ix2 q j)) ?_
    exact relu_apply hblk s b _ _ _ _ _ _ p q
  · exact scaleCol_apply s' _ _ p j

/-- Third body: the rectified pre-activation itself. -/
theorem pay2_apply (s : Vec Ideal S5000x1 .f32) (b : Vec Ideal S96 .f32) (hblk : Vec Ideal S5000x96 .f32)
    (p : Fin 5000) (j : Fin 96) :
    Gen.k2_pay1 (F := Ideal) s b hblk (ix2 p j) = max (hblk (ix2 p j) * s (ix2 p (0 : Fin 1)) + b (ix1 j)) 0 := by
  unfold Gen.k2_pay1
  exact relu_apply hblk s b _ _ _ _ _ _ p j

end Cert.KernelIdeal.RegionValue

end
-- ==== Proof.RegionValue0.lean ====
/-
  First kernel region: the array it leaves, entry by entry.

  The region walks the 50000 node rows in ten blocks of 5000; at block `t` it reads rows `5000 t … 5000 t + 4999` of
  the features and of the scale column, and the whole 96 × 96 weight matrix, and writes the same rows of the output.
  Entry `(n, j)` of the output therefore depends on row `n` of the features, column `j` of the weights and entry `n`
  of the scale column only:  (∑ q, x (n, q) · w (q, j)) · s n.
-/
import proofs.«128793_j4432406249964_2_alg».proof.Proof.Gen.KernelIdeal.Frame
import proofs.«128793_j4432406249964_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
private theorem zeroOff2 : (![0, 0] : Fin 2 → Nat) = fun _ => 0 := funext fun a => by fin_cases a <;> rfl

/-! ## The whole-array function -/

/-- What the first region leaves at `(n, j)`, from the features `x`, the weights `w` and the scale column `s`. -/
def layer0 (x : S50000x96.Idx → EReal) (w : S96x96.Idx → EReal) (s : S50000x1.Idx → EReal) (n : Fin 50000) (j : Fin 96) : EReal :=
  (∑ q : Fin 96, x (ix2 n q) * w (ix2 q j)) * s (ix2 n (0 : Fin 1))

theorem layer0_def (x : S50000x96.Idx → EReal) (w : S96x96.Idx → EReal) (s : S50000x1.Idx → EReal) (n : Fin 50000) (j : Fin 96) :
    layer0 x w s n j = (∑ q : Fin 96, x (ix2 n q) * w (ix2 q j)) * s (ix2 n (0 : Fin 1)) := rfl

/-- The same as one function of the array index. -/
def layer0Arr (x : S50000x96.Idx → EReal) (w : S96x96.Idx → EReal) (s : S50000x1.Idx → EReal) : S50000x96.Idx → EReal :=
  fun i => layer0 x w s (i 0) (i 1)

/-! ## The index maps over the grid -/

/-- Block `t` of the row-blocked windows starts at row block `t`, column block 0; the weights' window is always block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of row block `t` is node row `5000 t + p`. -/
def rowAt0 (t : Fin cfg0.N) (p : Fin 5000) : Fin 50000 :=
  ⟨5000 * t.val + p.val, by have ht : t.val < 10 := Nat.lt_of_lt_of_eq t.isLt N_0; have := p.isLt; omega⟩

/-! ## The input blocks, read at an entry -/

/-- The features' block at point `t` holds rows `5000 t …` of the features. -/
theorem iblk0_0_apply (c : Dev nD) (t : Fin cfg0.N) (p : Fin 5000) (q : Fin 96) :
    (iblk0 V c 0 t : Vec Ideal S5000x96 .f32) (ix2 p q) = (V c main_arg0 : S50000x96.Idx → EReal) (ix2 (rowAt0 t p) q) := by
  obtain ⟨e0, e1, -⟩ := idx0 t
  unfold iblk0
  rw [View.read_apply]
  show (V c main_arg0 : S50000x96.Idx → EReal) _ = _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 96 + 1 * q.val = q.val; omega

/-- The weights' block at every point is the whole weight matrix. -/
theorem iblk0_1_apply (c : Dev nD) (t : Fin cfg0.N) (q : Fin 96) (j : Fin 96) :
    (iblk0 V c 1 t : Vec Ideal S96x96 .f32) (ix2 q j) = (V c main_arg2 : S96x96.Idx → EReal) (ix2 q j) := by
  obtain ⟨-, -, e0, e1, -⟩ := idx0 t
  unfold iblk0
  rw [View.read_apply]
  show (V c main_arg2 : S96x96.Idx → EReal) _ = _
  refine congrArg _ (funext fun a => Fin.ext ?_)
  match a with
  | ⟨0, _⟩ => show win0_1.index t (0 : Fin 2) * 96 + 1 * q.val = q.val; omega
  | ⟨1, _⟩ => show win0_1.index t (1 : Fin 2) * 96 + 1 * j.val = j.val; omega

/-- The scale column's block at point `t` holds entries `5000 t …` of the column. -/
theorem iblk0_2_apply (c : Dev nD) (t : Fin cfg0.N) (p : Fin 5000) :
    (iblk0 V c 2 t : Vec Ideal S5000x1 .f32) (ix2 p (0 : Fin 1)) = (V c main_v15 : S50000x1.Idx → EReal) (ix2 (rowAt0 t p) (0 : Fin 1)) := by
  obtain ⟨-, -, -, -, e0, e1, -⟩ := idx0 t
  unfold iblk0
  rw [View.read_apply]
  show (V c main_v15 : S50000x1.Idx → EReal) _ = _
  refine congrArg _ (funext fun a => Fin.ext ?_)
  match a with
  | ⟨0, _⟩ => show win0_2.index t (0 : Fin 2) * 5000 + 1 * p.val = 5000 * t.val + p.val; omega
  | ⟨1, _⟩ => show win0_2.index t (1 : Fin 2) * 1 + 1 * 0 = 0; omega

/-! ## What a point writes back -/

/-- The stored value of the first body on blocks that hold row `n` of the features, the weights and entry `n` of the
    scale column, at `(p, j)`: the whole-array function at `(n, j)`. -/
theorem block0 (x : S50000x96.Idx → EReal) (w : S96x96.Idx → EReal) (s : S50000x1.Idx → EReal)
    (B0 : Vec Ideal S5000x96 .f32) (B1 : Vec Ideal S96x96 .f32) (B2 : Vec Ideal S5000x1 .f32)
    (n : Fin 50000) (p : Fin 5000) (j : Fin 96)
    (h0 : ∀ q : Fin 96, B0 (ix2 p q) = x (ix2 n q)) (h1 : ∀ q : Fin 96, B1 (ix2 q j) = w (ix2 q j))
    (h2 : B2 (ix2 p (0 : Fin 1)) = s (ix2 n (0 : Fin 1))) :
    k0_pay1 (F := Ideal) B0 B1 B2 (ix2 p j) = layer0 x w s n j := by
  rw [pay0_apply, h2]
  unfold layer0
  refine congrArg (· * s (ix2 n (0 : Fin 1))) (Finset.sum_congr rfl fun q _ => ?_)
  rw [h0, h1]

/-- Point `t` writes back block `t` of the whole-array function of the arrays the region finds. -/
theorem flushed0_eq (c : Dev nD) (t : Fin cfg0.N) :
    (dat0 V c).flushed 3 t = ((cfg0.win 3).blk t).view.read (Elt Ideal)
      (layer0Arr (V c main_arg0) (V c main_arg2) (V c main_v15)) := by
  show (cfg0.win 3).cut (grid0.coords t) ((dat0 V c).after 3 t) = _
  rw [after0_3]
  unfold out0_3
  rw [View.canon_unit_zero zeroOff2]
  simp only [View.ld_unit_zero (S := S5000x96) zeroOff2, View.ld_unit_zero (S := S96x96) zeroOff2,
    View.ld_unit_zero (S := S5000x1) zeroOff2]
  funext y
  obtain ⟨p, j, rfl⟩ : ∃ (p : Fin 5000) (j : Fin 96), y = ix2 p j := ⟨y 0, y 1, eq_ix2 y⟩
  have hx : (cfg0.win 3).xinj (grid0.coords t) (ix2 p j) = ix2 p j :=
    funext fun a => Fin.ext (by match a with | ⟨0, _⟩ => rfl | ⟨1, _⟩ => rfl)
  obtain ⟨-, -, -, -, -, -, e0, e1⟩ := idx0 t
  have hemb : ((cfg0.win 3).blk t).view.emb (ix2 p j) = ix2 (rowAt0 t p) j :=
    funext fun a => Fin.ext (by
      match a with
      | ⟨0, _⟩ => show win0_3.index t (0 : Fin 2) * 5000 + 1 * p.val = 5000 * t.val + p.val; omega
      | ⟨1, _⟩ => show win0_3.index t (1 : Fin 2) * 96 + 1 * j.val = j.val; omega)
  show k0_pay1 (iblk0 V c 0 t) (iblk0 V c 1 t) (iblk0 V c 2 t) ((cfg0.win 3).xinj (grid0.coords t) (ix2 p j))
    = layer0Arr (V c main_arg0) (V c main_arg2) (V c main_v15) (((cfg0.win 3).blk t).view.emb (ix2 p j))
  rw [hx, hemb]
  exact block0 _ _ _ (iblk0 V c 0 t) (iblk0 V c 1 t) (iblk0 V c 2 t) (rowAt0 t p) p j
    (fun q => iblk0_0_apply V c t p q) (fun q => iblk0_1_apply V c t q j) (iblk0_2_apply V c t p)

/-! ## The blocks cover the array -/

/-- An index lies in point `t`'s block iff each coordinate lies in the block's range on its axis. -/
theorem mem_blk0 (t : Fin cfg0.N) (i : S50000x96.Idx) :
    i ∈ ((cfg0.win 3).blk t).view.set ↔ ∀ a : Fin 2, win0_3.index t a * S5000x96.size a ≤ (i a).val
      ∧ (i a).val < win0_3.index t a * S5000x96.size a + S5000x96.size a := by
  show i ∈ ((View.whole main_v16).slice (win0_3.rect t)).set ↔ _
  rw [View.set_slice_whole, Rect.mem_set_unit]
  exact Iff.rfl

/-- Row `r` lies in the block of point `r / 5000`. -/
theorem cover0 (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  obtain ⟨t, ht⟩ : ∃ t : Fin cfg0.N, t.val = (i 0).val / 5000 :=
    ⟨⟨(i 0).val / 5000, Nat.lt_of_lt_of_eq (by omega) N_0.symm⟩, rfl⟩
  obtain ⟨-, -, -, -, -, -, e0, e1⟩ := idx0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 96 ≤ (i 1).val ∧ (i 1).val < win0_3.index t (1 : Fin 2) * 96 + 96
    omega

/-! ## The array the region leaves -/

/-- The first region's output array is the whole-array function of the arrays the region finds on entry. -/
theorem final0_arr (c : Dev nD) :
    (dat0 (F := Ideal) V c).arrAt 3 cfg0.N = layer0Arr (V c main_arg0) (V c main_arg2) (V c main_v15) :=
  (dat0 V c).arrAt_eq_of_cover 3 (layer0Arr (V c main_arg0) (V c main_arg2) (V c main_v15))
    (fun t _ => flushed0_eq V c t) cover0

/-- The same, entry by entry. -/
theorem final0 (c : Dev nD) (n : Fin 50000) (j : Fin 96) :
    ((dat0 (F := Ideal) V c).arrAt 3 cfg0.N : S50000x96.Idx → EReal) (ix2 n j)
      = layer0 (V c main_arg0) (V c main_arg2) (V c main_v15) n j :=
  congrFun (final0_arr V c) (ix2 n j)

end Cert.KernelIdeal.RegionValue

end
-- ==== Proof.RegionValue1.lean ====
/-
  Second kernel region: the array it leaves, entry by entry.

  The region walks the 50000 node rows in ten blocks of 5000; at block `t` it reads rows `5000 t … 5000 t + 4999` of
  the aggregated features and of the scale column, the whole bias vector and the whole 96 × 96 weight matrix, and
  writes the same rows of the output.  Entry `(n, j)` of the output depends on row `n` of the aggregated features,
  entry `n` of the scale column, the bias and column `j` of the weights only:
  (∑ q, max (h (n, q) · s n + b q) 0 · w (q, j)) · s n.
-/
import proofs.«128793_j4432406249964_2_alg».proof.Proof.Gen.KernelIdeal.Frame
import proofs.«128793_j4432406249964_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function: two axes, -/
private theorem zeroOff2 : (![0, 0] : Fin 2 → Nat) = fun _ => 0 := funext fun a => by fin_cases a <;> rfl
/-- and one. -/
private theorem zeroOff1 : (![0] : Fin 1 → Nat) = fun _ => 0 := funext fun a => by fin_cases a; rfl

/-! ## The whole-array function -/

/-- What the second region leaves at `(n, j)`, from the aggregated features `h`, the bias `b`, the weights `w` and the
    scale column `s`. -/
def layer1 (h : S50000x96.Idx → EReal) (b : S96.Idx → EReal) (w : S96x96.Idx → EReal) (s : S50000x1.Idx → EReal)
    (n : Fin 50000) (j : Fin 96) : EReal :=
  (∑ q : Fin 96, max (h (ix2 n q) * s (ix2 n (0 : Fin 1)) + b (ix1 q)) 0 * w (ix2 q j)) * s (ix2 n (0 : Fin 1))

theorem layer1_def (h : S50000x96.Idx → EReal) (b : S96.Idx → EReal) (w : S96x96.Idx → EReal) (s : S50000x1.Idx → EReal)
    (n : Fin 50000) (j : Fin 96) :
    layer1 h b w s n j
      = (∑ q : Fin 96, max (h (ix2 n q) * s (ix2 n (0 : Fin 1)) + b (ix1 q)) 0 * w (ix2 q j)) * s (ix2 n (0 : Fin 1)) := rfl

/-- The same as one function of the array index. -/
def layer1Arr (h : S50000x96.Idx → EReal) (b : S96.Idx → EReal) (w : S96x96.Idx → EReal) (s : S50000x1.Idx → EReal) :
    S50000x96.Idx → EReal :=
  fun i => layer1 h b w s (i 0) (i 1)

/-! ## The index maps over the grid -/

/-- Block `t` of the row-blocked windows starts at row block `t`, column block 0; the bias' and the weights' windows are
    always their whole arrays. -/
theorem idx1 : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of row block `t` is node row `5000 t + p`. -/
def rowAt1 (t : Fin cfg1.N) (p : Fin 5000) : Fin 50000 :=
  ⟨5000 * t.val + p.val, by have ht : t.val < 10 := Nat.lt_of_lt_of_eq t.isLt N_1; have := p.isLt; omega⟩

/-! ## The input blocks, read at an entry -/

/-- The aggregated features' block at point `t` holds rows `5000 t …` of the array. -/
theorem iblk1_0_apply (c : Dev nD) (t : Fin cfg1.N) (p : Fin 5000) (q : Fin 96) :
    (iblk1 V c 0 t : Vec Ideal S5000x96 .f32) (ix2 p q) = (V c main_v26 : S50000x96.Idx → EReal) (ix2 (rowAt1 t p) q) := by
  obtain ⟨e0, e1, -⟩ := idx1 t
  unfold iblk1
  rw [View.read_apply]
  show (V c main_v26 : S50000x96.Idx → EReal) _ = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 96 + 1 * q.val = q.val; omega

/-- The bias' block at every point is the whole bias vector. -/
theorem iblk1_1_apply (c : Dev nD) (t : Fin cfg1.N) (q : Fin 96) :
    (iblk1 V c 1 t : Vec Ideal S96 .f32) (ix1 q) = (V c main_arg3 : S96.Idx → EReal) (ix1 q) := by
  obtain ⟨-, -, e0, -⟩ := idx1 t
  unfold iblk1
  rw [View.read_apply]
  show (V c main_arg3 : S96.Idx → EReal) _ = _
  refine congrArg _ (funext fun a => Fin.ext ?_)
  match a with
  | ⟨0, _⟩ => show win1_1.index t (0 : Fin 1) * 96 + 1 * q.val = q.val; omega

/-- The weights' block at every point is the whole weight matrix. -/
theorem iblk1_2_apply (c : Dev nD) (t : Fin cfg1.N) (q : Fin 96) (j : Fin 96) :
    (iblk1 V c 2 t : Vec Ideal S96x96 .f32) (ix2 q j) = (V c main_arg4 : S96x96.Idx → EReal) (ix2 q j) := by
  obtain ⟨-, -, -, e0, e1, -⟩ := idx1 t
  unfold iblk1
  rw [View.read_apply]
  show (V c main_arg4 : S96x96.Idx → EReal) _ = _
  refine congrArg _ (funext fun a => Fin.ext ?_)
  match a with
  | ⟨0, _⟩ => show win1_2.index t (0 : Fin 2) * 96 + 1 * q.val = q.val; omega
  | ⟨1, _⟩ => show win1_2.index t (1 : Fin 2) * 96 + 1 * j.val = j.val; omega

/-- The scale column's block at point `t` holds entries `5000 t …` of the column. -/
theorem iblk1_3_apply (c : Dev nD) (t : Fin cfg1.N) (p : Fin 5000) :
    (iblk1 V c 3 t : Vec Ideal S5000x1 .f32) (ix2 p (0 : Fin 1)) = (V c main_v15 : S50000x1.Idx → EReal) (ix2 (rowAt1 t p) (0 : Fin 1)) := by
  obtain ⟨-, -, -, -, -, e0, e1, -⟩ := idx1 t
  unfold iblk1
  rw [View.read_apply]
  show (V c main_v15 : S50000x1.Idx → EReal) _ = _
  refine congrArg _ (funext fun a => Fin.ext ?_)
  match a with
  | ⟨0, _⟩ => show win1_3.index t (0 : Fin 2) * 5000 + 1 * p.val = 5000 * t.val + p.val; omega
  | ⟨1, _⟩ => show win1_3.index t (1 : Fin 2) * 1 + 1 * 0 = 0; omega

/-! ## What a point writes back -/

/-- The stored value of the second body on blocks that hold row `n` of the aggregated features, entry `n` of the scale
    column (read twice), the bias and the weights, at `(p, j)`: the whole-array function at `(n, j)`. -/
theorem block1 (h : S50000x96.Idx → EReal) (b : S96.Idx → EReal) (w : S96x96.Idx → EReal) (s : S50000x1.Idx → EReal)
    (B0 : Vec Ideal S5000x96 .f32) (B1 : Vec Ideal S96 .f32) (B2 : Vec Ideal S96x96 .f32) (B3 : Vec Ideal S5000x1 .f32)
    (n : Fin 50000) (p : Fin 5000) (j : Fin 96)
    (h0 : ∀ q : Fin 96, B0 (ix2 p q) = h (ix2 n q)) (h1 : ∀ q : Fin 96, B1 (ix1 q) = b (ix1 q))
    (h2 : ∀ q : Fin 96, B2 (ix2 q j) = w (ix2 q j)) (h3 : B3 (ix2 p (0 : Fin 1)) = s (ix2 n (0 : Fin 1))) :
    k1_pay1 (F := Ideal) B3 B1 B0 B2 B3 (ix2 p j) = layer1 h b w s n j := by
  rw [pay1_apply, h3]
  unfold layer1
  refine congrArg (· * s (ix2 n (0 : Fin 1))) (Finset.sum_congr rfl fun q _ => ?_)
  rw [h0, h1, h2]

/-- Point `t` writes back block `t` of the whole-array function of the arrays the region finds. -/
theorem flushed1_eq (c : Dev nD) (t : Fin cfg1.N) :
    (dat1 V c).flushed 4 t = ((cfg1.win 4).blk t).view.read (Elt Ideal)
      (layer1Arr (V c main_v26) (V c main_arg3) (V c main_arg4) (V c main_v15)) := by
  show (cfg1.win 4).cut (grid1.coords t) ((dat1 V c).after 4 t) = _
  rw [after1_4]
  unfold out1_4
  rw [View.canon_unit_zero zeroOff2]
  simp only [View.ld_unit_zero (S := S5000x96) zeroOff2, View.ld_unit_zero (S := S96x96) zeroOff2,
    View.ld_unit_zero (S := S5000x1) zeroOff2, View.ld_unit_zero (S := S96) zeroOff1]
  funext y
  obtain ⟨p, j, rfl⟩ : ∃ (p : Fin 5000) (j : Fin 96), y = ix2 p j := ⟨y 0, y 1, eq_ix2 y⟩
  have hx : (cfg1.win 4).xinj (grid1.coords t) (ix2 p j) = ix2 p j :=
    funext fun a => Fin.ext (by match a with | ⟨0, _⟩ => rfl | ⟨1, _⟩ => rfl)
  obtain ⟨-, -, -, -, -, -, -, e0, e1⟩ := idx1 t
  have hemb : ((cfg1.win 4).blk t).view.emb (ix2 p j) = ix2 (rowAt1 t p) j :=
    funext fun a => Fin.ext (by
      match a with
      | ⟨0, _⟩ => show win1_4.index t (0 : Fin 2) * 5000 + 1 * p.val = 5000 * t.val + p.val; omega
      | ⟨1, _⟩ => show win1_4.index t (1 : Fin 2) * 96 + 1 * j.val = j.val; omega)
  show k1_pay1 (iblk1 V c 3 t) (iblk1 V c 1 t) (iblk1 V c 0 t) (iblk1 V c 2 t) (iblk1 V c 3 t)
      ((cfg1.win 4).xinj (grid1.coords t) (ix2 p j))
    = layer1Arr (V c main_v26) (V c main_arg3) (V c main_arg4) (V c main_v15) (((cfg1.win 4).blk t).view.emb (ix2 p j))
  rw [hx, hemb]
  exact block1 _ _ _ _ (iblk1 V c 0 t) (iblk1 V c 1 t) (iblk1 V c 2 t) (iblk1 V c 3 t) (rowAt1 t p) p j
    (fun q => iblk1_0_apply V c t p q) (fun q => iblk1_1_apply V c t q) (fun q => iblk1_2_apply V c t q j)
    (iblk1_3_apply V c t p)

/-! ## The blocks cover the array -/

/-- An index lies in point `t`'s block iff each coordinate lies in the block's range on its axis. -/
theorem mem_blk1 (t : Fin cfg1.N) (i : S50000x96.Idx) :
    i ∈ ((cfg1.win 4).blk t).view.set ↔ ∀ a : Fin 2, win1_4.index t a * S5000x96.size a ≤ (i a).val
      ∧ (i a).val < win1_4.index t a * S5000x96.size a + S5000x96.size a := by
  show i ∈ ((View.whole main_v27).slice (win1_4.rect t)).set ↔ _
  rw [View.set_slice_whole, Rect.mem_set_unit]
  exact Iff.rfl

/-- Row `r` lies in the block of point `r / 5000`. -/
theorem cover1 (i : S50000x96.Idx) :
    ∃ t : Fin cfg1.N, (cfg1.win 4).flush t = true ∧ i ∈ ((cfg1.win 4).blk t).view.set := by
  have hi0 : (i 0).val < 50000 := (i 0).isLt
  have hi1 : (i 1).val < 96 := (i 1).isLt
  obtain ⟨t, ht⟩ : ∃ t : Fin cfg1.N, t.val = (i 0).val / 5000 :=
    ⟨⟨(i 0).val / 5000, Nat.lt_of_lt_of_eq (by omega) N_1.symm⟩, rfl⟩
  obtain ⟨-, -, -, -, -, -, -, e0, e1⟩ := idx1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 96 ≤ (i 1).val ∧ (i 1).val < win1_4.index t (1 : Fin 2) * 96 + 96
    omega

/-! ## The array the region leaves -/

/-- The second region's output array is the whole-array function of the arrays the region finds on entry. -/
theorem final1_arr (c : Dev nD) :
    (dat1 (F := Ideal) V c).arrAt 4 cfg1.N
      = layer1Arr (V c main_v26) (V c main_arg3) (V c main_arg4) (V c main_v15) :=
  (dat1 V c).arrAt_eq_of_cover 4 (layer1Arr (V c main_v26) (V c main_arg3) (V c main_arg4) (V c main_v15))
    (fun t _ => flushed1_eq V c t) cover1

/-- The same, entry by entry. -/
theorem final1 (c : Dev nD) (n : Fin 50000) (j : Fin 96) :
    ((dat1 (F := Ideal) V c).arrAt 4 cfg1.N : S50000x96.Idx → EReal) (ix2 n j)
      = layer1 (V c main_v26) (V c main_arg3) (V c main_arg4) (V c main_v15) n j :=
  congrFun (final1_arr V c) (ix2 n j)

end Cert.KernelIdeal.RegionValue

end
-- ==== Proof.RegionValue2.lean ====
/-
  Third kernel region: the array it leaves, entry by entry.

  The region walks the 50000 node rows in ten blocks of 5000; at block `t` it reads rows `5000 t … 5000 t + 4999` of
  the aggregated features and of the scale column and the whole bias vector, and writes the same rows of the output.
  Entry `(n, j)` of the output depends on the same entry of the aggregated features, entry `n` of the scale column
  and entry `j` of the bias only:  max (h (n, j) · s n + b j) 0.
-/
import proofs.«128793_j4432406249964_2_alg».proof.Proof.Gen.KernelIdeal.Frame
import proofs.«128793_j4432406249964_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function: two axes, -/
private theorem zeroOff2 : (![0, 0] : Fin 2 → Nat) = fun _ => 0 := funext fun a => by fin_cases a <;> rfl
/-- and one. -/
private theorem zeroOff1 : (![0] : Fin 1 → Nat) = fun _ => 0 := funext fun a => by fin_cases a; rfl

/-! ## The whole-array function -/

/-- What the third region leaves at `(n, j)`, from the aggregated features `h`, the bias `b` and the scale column `s`. -/
def layer2 (h : S50000x96.Idx → EReal) (b : S96.Idx → EReal) (s : S50000x1.Idx → EReal)
    (n : Fin 50000) (j : Fin 96) : EReal :=
  max (h (ix2 n j) * s (ix2 n (0 : Fin 1)) + b (ix1 j)) 0

theorem layer2_def (h : S50000x96.Idx → EReal) (b : S96.Idx → EReal) (s : S50000x1.Idx → EReal)
    (n : Fin 50000) (j : Fin 96) :
    layer2 h b s n j = max (h (ix2 n j) * s (ix2 n (0 : Fin 1)) + b (ix1 j)) 0 := rfl

/-- The same as one function of the array index. -/
def layer2Arr (h : S50000x96.Idx → EReal) (b : S96.Idx → EReal) (s : S50000x1.Idx → EReal) : S50000x96.Idx → EReal :=
  fun i => layer2 h b s (i 0) (i 1)

/-! ## The index maps over the grid -/

/-- Block `t` of the row-blocked windows starts at row block `t`, column block 0; the bias' window is always the whole
    vector. -/
theorem idx2 : ∀ t : Fin cfg2.N,
    win2_0.index t (0 : Fin 2) = t.val ∧ win2_0.index t (1 : Fin 2) = 0
    ∧ win2_1.index t (0 : Fin 1) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `p` of row block `t` is node row `5000 t + p`. -/
def rowAt2 (t : Fin cfg2.N) (p : Fin 5000) : Fin 50000 :=
  ⟨5000 * t.val + p.val, by have ht : t.val < 10 := Nat.lt_of_lt_of_eq t.isLt N_2; have := p.isLt; omega⟩

/-! ## The input blocks, read at an entry -/

/-- The aggregated features' block at point `t` holds rows `5000 t …` of the array. -/
theorem iblk2_0_apply (c : Dev nD) (t : Fin cfg2.N) (p : Fin 5000) (q : Fin 96) :
    (iblk2 V c 0 t : Vec Ideal S5000x96 .f32) (ix2 p q) = (V c main_v37 : S50000x96.Idx → EReal) (ix2 (rowAt2 t p) q) := by
  obtain ⟨e0, e1, -⟩ := idx2 t
  unfold iblk2
  rw [View.read_apply]
  show (V c main_v37 : S50000x96.Idx → EReal) _ = _
  refine congrArg _ (funext fun a => Fin.ext ?_)
  match a with
  | ⟨0, _⟩ => show win2_0.index t (0 : Fin 2) * 5000 + 1 * p.val = 5000 * t.val + p.val; omega
  | ⟨1, _⟩ => show win2_0.index t (1 : Fin 2) * 96 + 1 * q.val = q.val; omega

/-- The bias' block at every point is the whole bias vector. -/
theorem iblk2_1_apply (c : Dev nD) (t : Fin cfg2.N) (q : Fin 96) :
    (iblk2 V c 1 t : Vec Ideal S96 .f32) (ix1 q) = (V c main_arg5 : S96.Idx → EReal) (ix1 q) := by
  obtain ⟨-, -, e0, -⟩ := idx2 t
  unfold iblk2
  rw [View.read_apply]
  show (V c main_arg5 : S96.Idx → EReal) _ = _
  refine congrArg _ (funext fun a => Fin.ext ?_)
  match a with
  | ⟨0, _⟩ => show win2_1.index t (0 : Fin 1) * 96 + 1 * q.val = q.val; omega

/-- The scale column's block at point `t` holds entries `5000 t …` of the column. -/
theorem iblk2_2_apply (c : Dev nD) (t : Fin cfg2.N) (p : Fin 5000) :
    (iblk2 V c 2 t : Vec Ideal S5000x1 .f32) (ix2 p (0 : Fin 1)) = (V c main_v15 : S50000x1.Idx → EReal) (ix2 (rowAt2 t p) (0 : Fin 1)) := by
  obtain ⟨-, -, -, e0, e1, -⟩ := idx2 t
  unfold iblk2
  rw [View.read_apply]
  show (V c main_v15 : S50000x1.Idx → EReal) _ = _
  refine congrArg _ (funext fun a => Fin.ext ?_)
  match a with
  | ⟨0, _⟩ => show win2_2.index t (0 : Fin 2) * 5000 + 1 * p.val = 5000 * t.val + p.val; omega
  | ⟨1, _⟩ => show win2_2.index t (1 : Fin 2) * 1 + 1 * 0 = 0; omega

/-! ## What a point writes back -/

/-- The stored value of the third body on blocks that hold entry `(n, j)` of the aggregated features, entry `n` of the
    scale column and the bias, at `(p, j)`: the whole-array function at `(n, j)`. -/
theorem block2 (h : S50000x96.Idx → EReal) (b : S96.Idx → EReal) (s : S50000x1.Idx → EReal)
    (B0 : Vec Ideal S5000x96 .f32) (B1 : Vec Ideal S96 .f32) (B2 : Vec Ideal S5000x1 .f32)
    (n : Fin 50000) (p : Fin 5000) (j : Fin 96)
    (h0 : B0 (ix2 p j) = h (ix2 n j)) (h1 : B1 (ix1 j) = b (ix1 j))
    (h2 : B2 (ix2 p (0 : Fin 1)) = s (ix2 n (0 : Fin 1))) :
    k2_pay1 (F := Ideal) B2 B1 B0 (ix2 p j) = layer2 h b s n j := by
  rw [pay2_apply, h0, h1, h2]
  rfl

/-- Point `t` writes back block `t` of the whole-array function of the arrays the region finds. -/
theorem flushed2_eq (c : Dev nD) (t : Fin cfg2.N) :
    (dat2 V c).flushed 3 t = ((cfg2.win 3).blk t).view.read (Elt Ideal)
      (layer2Arr (V c main_v37) (V c main_arg5) (V c main_v15)) := by
  show (cfg2.win 3).cut (grid2.coords t) ((dat2 V c).after 3 t) = _
  rw [after2_3]
  unfold out2_3
  rw [View.canon_unit_zero zeroOff2]
  simp only [View.ld_unit_zero (S := S5000x96) zeroOff2, View.ld_unit_zero (S := S5000x1) zeroOff2,
    View.ld_unit_zero (S := S96) zeroOff1]
  funext y
  obtain ⟨p, j, rfl⟩ : ∃ (p : Fin 5000) (j : Fin 96), y = ix2 p j := ⟨y 0, y 1, eq_ix2 y⟩
  have hx : (cfg2.win 3).xinj (grid2.coords t) (ix2 p j) = ix2 p j :=
    funext fun a => Fin.ext (by match a with | ⟨0, _⟩ => rfl | ⟨1, _⟩ => rfl)
  obtain ⟨-, -, -, -, -, e0, e1⟩ := idx2 t
  have hemb : ((cfg2.win 3).blk t).view.emb (ix2 p j) = ix2 (rowAt2 t p) j :=
    funext fun a => Fin.ext (by
      match a with
      | ⟨0, _⟩ => show win2_3.index t (0 : Fin 2) * 5000 + 1 * p.val = 5000 * t.val + p.val; omega
      | ⟨1, _⟩ => show win2_3.index t (1 : Fin 2) * 96 + 1 * j.val = j.val; omega)
  show k2_pay1 (iblk2 V c 2 t) (iblk2 V c 1 t) (iblk2 V c 0 t) ((cfg2.win 3).xinj (grid2.coords t) (ix2 p j))
    = layer2Arr (V c main_v37) (V c main_arg5) (V c main_v15) (((cfg2.win 3).blk t).view.emb (ix2 p j))
  rw [hx, hemb]
  exact block2 _ _ _ (iblk2 V c 0 t) (iblk2 V c 1 t) (iblk2 V c 2 t) (rowAt2 t p) p j
    (iblk2_0_apply V c t p j) (iblk2_1_apply V c t j) (iblk2_2_apply V c t p)

/-! ## The blocks cover the array -/

/-- An index lies in point `t`'s block iff each coordinate lies in the block's range on its axis. -/
theorem mem_blk2 (t : Fin cfg2.N) (i : S50000x96.Idx) :
    i ∈ ((cfg2.win 3).blk t).view.set ↔ ∀ a : Fin 2, win2_3.index t a * S5000x96.size a ≤ (i a).val
      ∧ (i a).val < win2_3.index t a * S5000x96.size a + S5000x96.size a := by
  show i ∈ ((View.whole main_v38).slice (win2_3.rect t)).set ↔ _
  rw [View.set_slice_whole, Rect.mem_set_unit]
  exact Iff.rfl

/-- Row `r` lies in the block of point `r / 5000`. -/
theorem cover2 (i : S50000x96.Idx) :
    ∃ t : Fin cfg2.N, (cfg2.win 3).flush t = true ∧ i ∈ ((cfg2.win 3).blk t).view.set := by
  have hi0 : (i 0).val < 50000 := (i 0).isLt
  have hi1 : (i 1).val < 96 := (i 1).isLt
  obtain ⟨t, ht⟩ : ∃ t : Fin cfg2.N, t.val = (i 0).val / 5000 :=
    ⟨⟨(i 0).val / 5000, Nat.lt_of_lt_of_eq (by omega) N_2.symm⟩, rfl⟩
  obtain ⟨-, -, -, -, -, e0, e1⟩ := idx2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 96 ≤ (i 1).val ∧ (i 1).val < win2_3.index t (1 : Fin 2) * 96 + 96
    omega

/-! ## The array the region leaves -/

/-- The third region's output array is the whole-array function of the arrays the region finds on entry. -/
theorem final2_arr (c : Dev nD) :
    (dat2 (F := Ideal) V c).arrAt 3 cfg2.N = layer2Arr (V c main_v37) (V c main_arg5) (V c main_v15) :=
  (dat2 V c).arrAt_eq_of_cover 3 (layer2Arr (V c main_v37) (V c main_arg5) (V c main_v15))
    (fun t _ => flushed2_eq V c t) cover2

/-- The same, entry by entry. -/
theorem final2 (c : Dev nD) (n : Fin 50000) (j : Fin 96) :
    ((dat2 (F := Ideal) V c).arrAt 3 cfg2.N : S50000x96.Idx → EReal) (ix2 n j)
      = layer2 (V c main_v37) (V c main_arg5) (V c main_v15) n j :=
  congrFun (final2_arr V c) (ix2 n j)

end Cert.KernelIdeal.RegionValue

end
-- ==== Proof.RegionValue.lean ====
/-
  The three kernel regions' output arrays, each as one function of the arrays the region finds on entry:

  * first region   (`final0`, `final0_arr`):  (∑ q, x (n, q) · w₁ (q, j)) · s n
  * second region  (`final1`, `final1_arr`):  (∑ q, max (h (n, q) · s n + b₁ q) 0 · w₂ (q, j)) · s n
  * third region   (`final2`, `final2_arr`):  max (h' (n, j) · s n + b₂ j) 0

  where `s` is the per-node scale column.  Each is proved in its own module; this one gathers them.
-/
import proofs.«128793_j4432406249964_2_alg».proof.Proof.RegionValue0
import proofs.«128793_j4432406249964_2_alg».proof.Proof.RegionValue1
import proofs.«128793_j4432406249964_2_alg».proof.Proof.RegionValue2
-- ==== Proof.GcnIndex.lean ====
/-
  Row numbers of a graph's edges as the host's gather and scatter read them, for 50000 nodes and 850000 edges.

  An edge's endpoint is a 32-bit word. A GATHER first normalises it the way array indexing does — a negative number
  counts from the end, so 50000 is added to it — and then clamps the signed result into [0, 49999]: `gsrc`.
  A SCATTER-ADD takes the word as it is, signed, and drops the update when it is outside [0, 50000): `lands v n` is the
  set of edges whose word, read signed, is exactly `n`.
  If an edge lands on `n` its word is a number in range, so normalising and clamping leave it alone: the gather reads
  row `n` for it too (`gsrc_of_mem_lands`).
-/
import Idealize.ShloMosaic.Lib.ValueIdx

namespace Cert.Gcn

open Idealize.ShloMosaic Idealize.ShloMosaic.ValueIdx

/-- Index normalisation of one word: a negative number has the extent added. Spelt with the scalar operations the host's
    `select (cmpi slt v 0) (addi v 50000) v` reads as at an index. -/
def wrapIdx (b : BitVec 32) : BitVec 32 := Scalar.select (IntOp.cmpi .slt b 0#32) (IntOp.addi b 50000#32) b

/-- The row a gather reads for edge `e`: its word normalised, read signed, clamped into the array. -/
def gsrc (v : IVec ⟨1, ![850000]⟩ 32) (e : Fin 850000) : Fin 50000 :=
  ⟨min (wrapIdx (v (ix1 e))).toInt.toNat (50000 - 1), by omega⟩

/-- The edges whose scatter-add update lands on row `n`: the word, read signed and as it is, equals `n`. -/
def lands (v : IVec ⟨1, ![850000]⟩ 32) (n : Fin 50000) : Finset (Fin 850000) :=
  Finset.univ.filter fun e => (v (ix1 e)).toInt = (n.val : Int)

theorem mem_lands (v : IVec ⟨1, ![850000]⟩ 32) (n : Fin 50000) (e : Fin 850000) :
    e ∈ lands v n ↔ (v (ix1 e)).toInt = (n.val : Int) := by
  unfold lands; rw [Finset.mem_filter]; exact ⟨fun h => h.2, fun h => ⟨Finset.mem_univ _, h⟩⟩

/-- A word that is not negative is its own normalisation. -/
theorem wrapIdx_of_nonneg (b : BitVec 32) (h : 0 ≤ b.toInt) : wrapIdx b = b := by
  have hs : b.slt 0#32 = false := by
    unfold BitVec.slt
    rw [BitVec.toInt_zero]
    exact decide_eq_false (by omega)
  show Scalar.select (BitVec.ofBool (b.slt 0#32)) (IntOp.addi b 50000#32) b = b
  rw [hs]
  exact select_zero _ _

/-- An edge whose update lands on row `n` is read at row `n` by a gather as well. -/
theorem gsrc_of_mem_lands (v : IVec ⟨1, ![850000]⟩ 32) (n : Fin 50000) (e : Fin 850000) (h : e ∈ lands v n) :
    gsrc v e = n := by
  have h' : (v (ix1 e)).toInt = (n.val : Int) := (mem_lands v n e).mp h
  refine Fin.ext ?_
  show min (wrapIdx (v (ix1 e))).toInt.toNat (50000 - 1) = n.val
  rw [wrapIdx_of_nonneg _ (by omega), h']
  have := n.isLt
  omega

end Cert.Gcn
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.LibRowScatterSum.lean ====
/-
  A scatter-add of rows, and of vector entries, by ONE row number per update, read at an index as a sum over the updates.

  An integer column `idx : [E, 1]` names one row of the operand for each of `E` updates. Update element `(e, c')` of
  `u : [E, C]` lands on operand element `(i, c)` of `[N, C]` exactly when `idx[e, 0]`, read as a signed integer, is `i`
  and `c' = c` (an update whose row is outside `[0, N)` lands nowhere). So on the extended reals the accumulated
  scatter is, at `(i, c)`, the operand's element plus the sum of `u[e, c]` over the updates `e` whose row number is `i`:
  which updates contribute depends on the column of row numbers only, not on `c` and not on the width `C`.
  The same for a vector of updates `[E]` scattered into `[N]`.
-/
import Idealize.ShloMosaic.Lib.ValueIdx
import Idealize.ShloMosaic.PureOps.Ideal.Laws
import proofs.«128793_j4432406249964_2_alg».proof.Proof.LibRowIndex

noncomputable section

namespace Cert.Lib.RowScatterSum

open Idealize.ShloMosaic Idealize.ShloMosaic.ValueIdx Cert.Lib.RowIndex

/-! ## Rows of a matrix -/

section Rows

variable {N C E w : Nat} (wf : ScatterDims.WF ⟨2, ![N, C]⟩ ⟨2, ![E, 1]⟩ ⟨2, ![E, C]⟩ [1] [0] [0] 1)

/-- On the row axis the start of an update's window is its row number, read signed. -/
theorem start_row (idx : IVec ⟨2, ![E, 1]⟩ w) (u : (⟨2, ![E, C]⟩ : Shape).Idx) :
    (rowScatterDims N C E wf).start u idx 0 = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the column axis the window starts at zero. -/
theorem start_col (idx : IVec ⟨2, ![E, 1]⟩ w) (u : (⟨2, ![E, C]⟩ : Shape).Idx) :
    (rowScatterDims N C E wf).start u idx 1 = 0 := by
  unfold ScatterDims.start
  rw [dif_neg (show ¬ (1 : Fin 2) ∈ (rowScatterDims N C E wf).scatterDimsToOperandDims from
    (by decide : ¬ (1 : Fin 2) ∈ ([0] : List (Fin 2))))]

/-- The row axis is inserted: no window coordinate on it. -/
theorem window_row (u : (⟨2, ![E, C]⟩ : Shape).Idx) : (rowScatterDims N C E wf).window u 0 = 0 := by
  unfold ScatterDims.window
  rw [dif_neg (show ¬ (0 : Fin 2) ∈ (rowScatterDims N C E wf).sKept from
    (by decide : ¬ (0 : Fin 2) ∈ (List.finRange 2).filter (fun a => a ∉ ([0] : List (Fin 2)))))]

/-- The window coordinate on the column axis is the update's column. -/
theorem window_col (u : (⟨2, ![E, C]⟩ : Shape).Idx) : (rowScatterDims N C E wf).window u 1 = (u 1).val := by
  unfold ScatterDims.window
  rw [dif_pos (show (1 : Fin 2) ∈ (rowScatterDims N C E wf).sKept from
    (by decide : (1 : Fin 2) ∈ (List.finRange 2).filter (fun a => a ∉ ([0] : List (Fin 2)))))]
  rfl

/-- Update element `(e, c')` lands on `(i, c)` exactly when its row number is `i` and its column is `c`. -/
theorem lands_iff (idx : IVec ⟨2, ![E, 1]⟩ w) (e : Fin E) (c' : Fin C) (i : Fin N) (c : Fin C) :
    (rowScatterDims N C E wf).resultIdx? (ix2 e c') idx = some (ix2 i c)
      ↔ ((idx (ix2 e 0)).toInt = (i.val : Int) ∧ c' = c) := by
  have s0 : (rowScatterDims N C E wf).start (ix2 e c') idx 0 = (idx (ix2 e 0)).toInt := start_row wf idx (ix2 e c')
  have s1 := start_col wf idx (ix2 e c')
  have w0 := window_row wf (ix2 e c')
  have w1 : (rowScatterDims N C E wf).window (ix2 e c') 1 = c'.val := window_col wf (ix2 e c')
  unfold ScatterDims.resultIdx?
  constructor
  · intro h
    split at h
    · rename_i hb
      have hv := Option.some.inj h
      have e0 : ((rowScatterDims N C E wf).start (ix2 e c') idx 0
          + ((rowScatterDims N C E wf).window (ix2 e c') 0 : Int)).toNat = i.val :=
        congrArg (fun f : (⟨2, ![N, C]⟩ : Shape).Idx => (f 0).val) hv
      have e1 : ((rowScatterDims N C E wf).start (ix2 e c') idx 1
          + ((rowScatterDims N C E wf).window (ix2 e c') 1 : Int)).toNat = c.val :=
        congrArg (fun f : (⟨2, ![N, C]⟩ : Shape).Idx => (f 1).val) hv
      have hb0 := (hb 0).1
      rw [s0, w0] at e0 hb0
      rw [s1, w1] at e1
      simp only [Nat.cast_zero, add_zero] at e0 hb0
      exact ⟨by omega, Fin.ext (by omega)⟩
    · exact absurd h (by simp)
  · rintro ⟨hr, rfl⟩
    split
    · refine congrArg some (funext fun a => Fin.ext ?_)
      match a with
      | ⟨0, _⟩ =>
        show ((rowScatterDims N C E wf).start (ix2 e c') idx 0
          + ((rowScatterDims N C E wf).window (ix2 e c') 0 : Int)).toNat = i.val
        rw [s0, w0, hr]; simp
      | ⟨1, _⟩ =>
        show ((rowScatterDims N C E wf).start (ix2 e c') idx 1
          + ((rowScatterDims N C E wf).window (ix2 e c') 1 : Int)).toNat = c'.val
        rw [s1, w1]; simp
    · rename_i hb
      exfalso; apply hb; intro a
      match a with
      | ⟨0, _⟩ =>
        show 0 ≤ (rowScatterDims N C E wf).start (ix2 e c') idx 0 + ((rowScatterDims N C E wf).window (ix2 e c') 0 : Int)
          ∧ (rowScatterDims N C E wf).start (ix2 e c') idx 0 + ((rowScatterDims N C E wf).window (ix2 e c') 0 : Int) < (N : Int)
        rw [s0, w0, hr]; have := i.isLt; constructor <;> omega
      | ⟨1, _⟩ =>
        show 0 ≤ (rowScatterDims N C E wf).start (ix2 e c') idx 1 + ((rowScatterDims N C E wf).window (ix2 e c') 1 : Int)
          ∧ (rowScatterDims N C E wf).start (ix2 e c') idx 1 + ((rowScatterDims N C E wf).window (ix2 e c') 1 : Int) < (C : Int)
        rw [s1, w1]; have := c'.isLt; constructor <;> omega

/-- The accumulated row scatter at `(i, c)`: the operand's element plus the sum, over the updates whose row number is
    `i`, of the update's element in column `c`. -/
theorem rowScatterAdd_apply {φ : FTy} (x : FVec Ideal ⟨2, ![N, C]⟩ φ) (idx : IVec ⟨2, ![E, 1]⟩ w)
    (upd : FVec Ideal ⟨2, ![E, C]⟩ φ) (i : Fin N) (c : Fin C) :
    Host.scatterAdd (rowScatterDims N C E wf) x idx upd (ix2 i c)
      = x (ix2 i c) + ∑ e ∈ Finset.univ.filter (fun e : Fin E => (idx (ix2 e 0)).toInt = (i.val : Int)), upd (ix2 e c) := by
  show Ideal.hostScatterAdd (rowScatterDims N C E wf) x idx upd (ix2 i c) = _
  unfold Ideal.hostScatterAdd
  congr 1
  rw [Finset.sum_filter, sum_idx2, Finset.sum_filter]
  refine Finset.sum_congr rfl fun e _ => ?_
  by_cases hr : (idx (ix2 e 0)).toInt = (i.val : Int)
  · rw [if_pos hr, Finset.sum_eq_single c]
    · rw [if_pos ((lands_iff wf idx e c i c).mpr ⟨hr, rfl⟩)]
    · intro c' _ hne
      exact if_neg fun h => hne ((lands_iff wf idx e c' i c).mp h).2
    · intro h; exact absurd (Finset.mem_univ c) h
  · rw [if_neg hr]
    exact Finset.sum_eq_zero fun c' _ => if_neg fun h => hr ((lands_iff wf idx e c' i c).mp h).1

end Rows

/-! ## Entries of a vector -/

section Entries

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `zeros.at[idx].add(u)` for updates `u : [E]` into `[N]` and a column of positions
    `idx : [E, 1]`: no window axis, the operand's one axis inserted, one start index per update. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vstart (idx : IVec ⟨2, ![E, 1]⟩ w) (u : (⟨1, ![E]⟩ : Shape).Idx) :
    (vecScatterDims N E wf).start u idx 0 = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

theorem vwindow (u : (⟨1, ![E]⟩ : Shape).Idx) : (vecScatterDims N E wf).window u 0 = 0 := by
  unfold ScatterDims.window
  rw [dif_neg (show ¬ (0 : Fin 1) ∈ (vecScatterDims N E wf).sKept from
    (by decide : ¬ (0 : Fin 1) ∈ (List.finRange 1).filter (fun a => a ∉ ([0] : List (Fin 1)))))]

/-- Update `e` lands on entry `i` exactly when its position, read signed, is `i`. -/
theorem vlands_iff (idx : IVec ⟨2, ![E, 1]⟩ w) (e : Fin E) (i : Fin N) :
    (vecScatterDims N E wf).resultIdx? (ix1 e) idx = some (ix1 i) ↔ (idx (ix2 e 0)).toInt = (i.val : Int) := by
  have s0 : (vecScatterDims N E wf).start (ix1 e) idx 0 = (idx (ix2 e 0)).toInt := vstart wf idx (ix1 e)
  have w0 := vwindow wf (ix1 e)
  unfold ScatterDims.resultIdx?
  constructor
  · intro h
    split at h
    · rename_i hb
      have e0 : ((vecScatterDims N E wf).start (ix1 e) idx 0
          + ((vecScatterDims N E wf).window (ix1 e) 0 : Int)).toNat = i.val :=
        congrArg (fun f : (⟨1, ![N]⟩ : Shape).Idx => (f 0).val) (Option.some.inj h)
      have hb0 := (hb 0).1
      rw [s0, w0] at e0 hb0
      simp only [Nat.cast_zero, add_zero] at e0 hb0
      omega
    · exact absurd h (by simp)
  · intro hr
    split
    · refine congrArg some (funext fun a => Fin.ext ?_)
      match a with
      | ⟨0, _⟩ =>
        show ((vecScatterDims N E wf).start (ix1 e) idx 0
          + ((vecScatterDims N E wf).window (ix1 e) 0 : Int)).toNat = i.val
        rw [s0, w0, hr]; simp
    · rename_i hb
      exfalso; apply hb; intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [s0, w0, hr]; have := i.isLt; constructor <;> omega

/-- The accumulated scatter of vector entries at `i`: the operand's entry plus the sum of the updates whose position is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (vecScatterDims N E wf) x idx upd (ix1 i)
      = x (ix1 i) + ∑ e ∈ Finset.univ.filter (fun e : Fin E => (idx (ix2 e 0)).toInt = (i.val : Int)), upd (ix1 e) := by
  show Ideal.hostScatterAdd (vecScatterDims N E wf) x idx upd (ix1 i) = _
  unfold Ideal.hostScatterAdd
  congr 1
  rw [Finset.sum_filter, sum_idx1, Finset.sum_filter]
  refine Finset.sum_congr rfl fun e _ => ?_
  by_cases hr : (idx (ix2 e 0)).toInt = (i.val : Int)
  · rw [if_pos hr, if_pos ((vlands_iff wf idx e i).mpr hr)]
  · rw [if_neg hr, if_neg fun h => hr ((vlands_iff wf idx e i).mp h)]

end Entries

end Cert.Lib.RowScatterSum

end
-- ==== Proof.GcnHostOps.lean ====
/-
  The host operations of a graph convolution over 50000 nodes and 850000 edges, each read at an index written by
  coordinates.

  An edge list is a vector of 850000 words. The host turns it into a column [850000, 1] either as it is (the column a
  scatter-add takes) or after index normalisation, "a negative word has 50000 added" (the column a gather takes).
  * A gather of rows of a matrix [50000, 96], or of entries of a vector [50000], by a normalised column reads, for
    edge e, row gsrc v e: the normalised word read signed and clamped into the array.
  * A scatter-add of rows [850000, 96] into [50000, 96], or of entries [850000] into [50000], by a raw column adds
    to row n the updates of the edges in lands v n: those whose word, read signed, is n.
  * A broadcast scalar constant reads that constant everywhere; the zero word is the real 0.
  Every shape side condition is an argument, so the statements hold for whichever proofs a program carries.
-/
import Idealize.ShloMosaic.Lib.ValueIdx
import Idealize.ShloMosaic.Lib.Pipeline.Value
import Idealize.ShloMosaic.PureOps.Ideal.Laws
import proofs.«128793_j4432406249964_2_alg».proof.Proof.GcnIndex
import proofs.«128793_j4432406249964_2_alg».proof.Proof.LibRowIndex
import proofs.«128793_j4432406249964_2_alg».proof.Proof.LibRowScatterSum

noncomputable section

namespace Cert.Gcn.HostOps

open Idealize.ShloMosaic Idealize.ShloMosaic.ValueIdx

/-- The edge vector's shape, the edge column's, and the scalar shape. -/
abbrev SE : Shape := ⟨1, ![850000]⟩
abbrev SE1 : Shape := ⟨2, ![850000, 1]⟩
abbrev S0 : Shape := ⟨0, ![]⟩

/-! ## The edge column -/

/-- A vector made a column: element (e, 0) of the column is element e of the vector. -/
theorem rawCol_apply {α : Type} (hb : SE.BroadcastsInDim SE1 (![0] : Fin 1 → Fin 2)) (v : SE.Idx → α) (e : Fin 850000) :
    broadcastInDim SE1 (![0] : Fin 1 → Fin 2) hb v (ix2 e (0 : Fin 1)) = v (ix1 e) :=
  broadcastInDim_apply _ hb v (ix2 e (0 : Fin 1)) (ix1 e) (fun a => match a with
    | ⟨0, _⟩ => by show e.val = if (850000 : Nat) = 1 then 0 else e.val; rw [if_neg (by decide)])

/-- The normalised column: element (e, 0) is the normalisation of the vector's word e. The comparison with the
    broadcast 0, the sum with the broadcast 50000 and the select all read elementwise, and a broadcast scalar reads
    its one value. -/
theorem wrapCol_apply (hb : SE.BroadcastsInDim SE1 (![0] : Fin 1 → Fin 2)) (hb0 : S0.BroadcastsInDim SE (![] : Fin 0 → Fin 1))
    (v : IVec SE 32) (e : Fin 850000) :
    broadcastInDim SE1 (![0] : Fin 1 → Fin 2) hb
        (select (cmpi .slt v (broadcastInDim SE (![] : Fin 0 → Fin 1) hb0 (constantI S0 32 0#32)))
          (addi v (broadcastInDim SE (![] : Fin 0 → Fin 1) hb0 (constantI S0 32 50000#32))) v) (ix2 e (0 : Fin 1))
      = wrapIdx (v (ix1 e)) :=
  (rawCol_apply hb _ e).trans rfl

/-! ## Gathers by a normalised column -/

/-- Row e of the gathered rows is row gsrc v e of the matrix. -/
theorem gatherRows_apply
    (wf : GatherDims.WF ⟨2, ![50000, 96]⟩ ⟨2, ![850000, 1]⟩ ⟨2, ![850000, 96]⟩ [1] [0] [] [0] [] 1 ![1, 96])
    (v : IVec SE 32) (x : FVec Ideal ⟨2, ![50000, 96]⟩ .f32) (col : IVec SE1 32)
    (hcol : ∀ e : Fin 850000, col (ix2 e (0 : Fin 1)) = wrapIdx (v (ix1 e))) (e : Fin 850000) (c : Fin 96) :
    Host.gather (Cert.Lib.RowIndex.rowGatherDims 50000 96 850000 wf) x col (ix2 e c) = x (ix2 (gsrc v e) c) := by
  refine (Cert.Lib.RowIndex.rowGather_apply (by decide) wf x col e c).trans ?_
  refine congrArg (fun r : Fin 50000 => x (ix2 r c)) (Fin.ext ?_)
  show min (col (ix2 e (0 : Fin 1))).toInt.toNat (50000 - 1) = min (wrapIdx (v (ix1 e))).toInt.toNat (50000 - 1)
  rw [hcol e]

/-- Entry e of the gathered entries is entry gsrc v e of the vector. -/
theorem gatherVec_apply
    (wf : GatherDims.WF ⟨1, ![50000]⟩ ⟨2, ![850000, 1]⟩ ⟨1, ![850000]⟩ [] [0] [] [0] [] 1 ![1])
    (v : IVec SE 32) (x : FVec Ideal ⟨1, ![50000]⟩ .f32) (col : IVec SE1 32)
    (hcol : ∀ e : Fin 850000, col (ix2 e (0 : Fin 1)) = wrapIdx (v (ix1 e))) (e : Fin 850000) :
    Host.gather (Cert.Lib.RowIndex.vecGatherDims 50000 850000 wf) x col (ix1 e) = x (ix1 (gsrc v e)) := by
  refine (Cert.Lib.RowIndex.vecGather_apply (by decide) wf x col e).trans ?_
  refine congrArg (fun r : Fin 50000 => x (ix1 r)) (Fin.ext ?_)
  show min (col (ix2 e (0 : Fin 1))).toInt.toNat (50000 - 1) = min (wrapIdx (v (ix1 e))).toInt.toNat (50000 - 1)
  rw [hcol e]

/-! ## Scatter-adds by a raw column -/

/-- The edges whose row number in the column is n are the edges that land on n. -/
theorem filter_col_eq_lands (v : IVec SE 32) (col : IVec SE1 32)
    (hcol : ∀ e : Fin 850000, col (ix2 e (0 : Fin 1)) = v (ix1 e)) (n : Fin 50000) :
    Finset.univ.filter (fun e : Fin 850000 => (col (ix2 e 0)).toInt = (n.val : Int)) = lands v n := by
  unfold lands
  exact Finset.filter_congr fun e _ => by rw [hcol e]

/-- The accumulated scatter of rows at (n, c): the operand's element plus the column-c elements of the updates that
    land on row n. -/
theorem scatterRows_apply
    (wf : ScatterDims.WF ⟨2, ![50000, 96]⟩ ⟨2, ![850000, 1]⟩ ⟨2, ![850000, 96]⟩ [1] [0] [0] 1)
    (v : IVec SE 32) (x : FVec Ideal ⟨2, ![50000, 96]⟩ .f32) (col : IVec SE1 32)
    (hcol : ∀ e : Fin 850000, col (ix2 e (0 : Fin 1)) = v (ix1 e))
    (upd : FVec Ideal ⟨2, ![850000, 96]⟩ .f32) (n : Fin 50000) (c : Fin 96) :
    Host.scatterAdd (Cert.Lib.RowIndex.rowScatterDims 50000 96 850000 wf) x col upd (ix2 n c)
      = x (ix2 n c) + ∑ e ∈ lands v n, upd (ix2 e c) := by
  refine (Cert.Lib.RowScatterSum.rowScatterAdd_apply wf x col upd n c).trans ?_
  rw [filter_col_eq_lands v col hcol n]

/-- The accumulated scatter of entries at n: the operand's entry plus the updates that land on n. -/
theorem scatterVec_apply
    (wf : ScatterDims.WF ⟨1, ![50000]⟩ ⟨2, ![850000, 1]⟩ ⟨1, ![850000]⟩ [] [0] [0] 1)
    (v : IVec SE 32) (x : FVec Ideal ⟨1, ![50000]⟩ .f32) (col : IVec SE1 32)
    (hcol : ∀ e : Fin 850000, col (ix2 e (0 : Fin 1)) = v (ix1 e))
    (upd : FVec Ideal ⟨1, ![850000]⟩ .f32) (n : Fin 50000) :
    Host.scatterAdd (Cert.Lib.RowScatterSum.vecScatterDims 50000 850000 wf) x col upd (ix1 n)
      = x (ix1 n) + ∑ e ∈ lands v n, upd (ix1 e) := by
  refine (Cert.Lib.RowScatterSum.vecScatterAdd_apply wf x col upd n).trans ?_
  rw [filter_col_eq_lands v col hcol n]

/-! ## Broadcast scalar constants -/

/-- The zero matrix: the broadcast zero word is the real 0 everywhere. -/
theorem zeros2_apply (h : S0.BroadcastsInDim ⟨2, ![50000, 96]⟩ (![] : Fin 0 → Fin 2)) (i : (⟨2, ![50000, 96]⟩ : Shape).Idx) :
    broadcastInDim ⟨2, ![50000, 96]⟩ (![] : Fin 0 → Fin 2) h (constant (F := Ideal) S0 .f32 0x00000000#32) i = 0 := by
  show Ideal.ofBits .f32 0x00000000#32 = 0
  exact Ideal.ofBits_zero_f32

/-- The zero vector. -/
theorem zeros1_apply (h : S0.BroadcastsInDim ⟨1, ![50000]⟩ (![] : Fin 0 → Fin 1)) (i : (⟨1, ![50000]⟩ : Shape).Idx) :
    broadcastInDim ⟨1, ![50000]⟩ (![] : Fin 0 → Fin 1) h (constant (F := Ideal) S0 .f32 0x00000000#32) i = 0 := by
  show Ideal.ofBits .f32 0x00000000#32 = 0
  exact Ideal.ofBits_zero_f32

/-- The vector of ones over the edges: every entry is the word of 1.0. -/
theorem ones_apply (h : S0.BroadcastsInDim SE (![] : Fin 0 → Fin 1)) (i : SE.Idx) :
    broadcastInDim SE (![] : Fin 0 → Fin 1) h (constant (F := Ideal) S0 .f32 0x3F800000#32) i
      = Ideal.ofBits .f32 0x3F800000#32 := rfl

end Cert.Gcn.HostOps

end
-- ==== Proof.LibGcnLayer.lean ====
/-
  One graph-convolution layer with symmetric degree normalisation, twice, written two ways on the extended reals,
  and the law that joins them.

  Nodes `ν`, features `κ`, edges `ι` are finite types. An edge `e` reads the features of node `g e` (its source);
  `L n` is the set of edges whose messages are summed into node `n`, and `g' e` is the edge's target as the
  normalisation looks it up, with `g' e = n` for every `e ∈ L n`. `D` is the per-node scale (an inverse square root
  of a degree). A layer is: transform by a weight matrix, scale each edge's message by `D (g e) · D (g' e)`, sum the
  messages landing on a node, add a bias, rectify.

  * `refOut` scales every message by the product of the two node scales, edge by edge.
  * `kernelOut` scales the transformed features of each node once by its own `D` before the messages are summed, and
    scales the sum landing on `n` once by `D n` after: the factor `D (g' e) = D n` is the same for every edge of `L n`
    and so comes out of the sum.

  Taking a common factor out of a sum is distributivity, which on the extended reals fails at infinities of opposite
  signs; it holds when every summand is a real number. Hence the hypotheses: every input entry and every scale is real.
-/
import Mathlib.Data.EReal.Basic
import Mathlib.Data.EReal.Operations
import Mathlib.Algebra.BigOperators.Ring.Finset
import Mathlib.Algebra.Order.BigOperators.Group.Finset

noncomputable section

namespace Cert.Gcn

variable {ν κ ι : Type} [Fintype κ]

/-! ## The two forms -/

/-- A node's features times a weight matrix. -/
def lin (H : ν → κ → EReal) (W : κ → κ → EReal) (n : ν) (j : κ) : EReal := ∑ q, H n q * W q j

/-- The features each node offers its neighbours in the factored form: transformed, then scaled by the node's own scale. -/
def pre (H : ν → κ → EReal) (W : κ → κ → EReal) (D : ν → EReal) (n : ν) (j : κ) : EReal := lin H W n j * D n

/-- The plain sum of the offered features over the edges landing on a node. -/
def agg (g : ι → ν) (L : ν → Finset ι) (P : ν → κ → EReal) (n : ν) (j : κ) : EReal := 0 + ∑ e ∈ L n, P (g e) j

/-- The rest of a factored layer: scale the sum by the node's scale, add the bias, rectify. -/
def post (A : ν → κ → EReal) (b : κ → EReal) (D : ν → EReal) (n : ν) (j : κ) : EReal := max (A n j * D n + b j) 0

/-- One layer with every message scaled edge by edge. -/
def refLayer (g g' : ι → ν) (L : ν → Finset ι) (D : ν → EReal) (H : ν → κ → EReal) (W : κ → κ → EReal) (b : κ → EReal)
    (n : ν) (j : κ) : EReal :=
  max ((0 + ∑ e ∈ L n, (D (g e) * D (g' e)) * lin H W (g e) j) + b j) 0

/-- Two layers, factored form. -/
def kernelOut (g : ι → ν) (L : ν → Finset ι) (D : ν → EReal) (X : ν → κ → EReal) (W1 : κ → κ → EReal) (b1 : κ → EReal)
    (W2 : κ → κ → EReal) (b2 : κ → EReal) : ν → κ → EReal :=
  post (agg g L (pre (post (agg g L (pre X W1 D)) b1 D) W2 D)) b2 D

/-- Two layers, edge-by-edge form. -/
def refOut (g g' : ι → ν) (L : ν → Finset ι) (D : ν → EReal) (X : ν → κ → EReal) (W1 : κ → κ → EReal) (b1 : κ → EReal)
    (W2 : κ → κ → EReal) (b2 : κ → EReal) : ν → κ → EReal :=
  refLayer g g' L D (refLayer g g' L D X W1 b1) W2 b2

/-! ## Real numbers inside the extended reals -/

/-- A finite sum of real numbers, as an extended real, is the sum of them as extended reals. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The larger of two real numbers, as an extended real, is the larger of them as extended reals (the inclusion is monotone). -/
theorem coe_max (a b : ℝ) : max (a : EReal) (b : EReal) = ((max a b : ℝ) : EReal) :=
  (EReal.coe_strictMono.monotone.map_max).symm

/-- An array of extended reals all of whose entries are real. -/
def IsReal2 (H : ν → κ → EReal) : Prop := ∀ n j, ∃ r : ℝ, H n j = r
def IsReal1 {α : Type} (b : α → EReal) : Prop := ∀ j, ∃ r : ℝ, b j = r

theorem isReal2_iff (H : ν → κ → EReal) : IsReal2 H ↔ ∃ h : ν → κ → ℝ, H = fun n j => (h n j : EReal) := by
  constructor
  · intro hH
    choose h hh using hH
    exact ⟨h, funext fun n => funext fun j => hh n j⟩
  · rintro ⟨h, rfl⟩ n j; exact ⟨h n j, rfl⟩

theorem isReal1_iff {α : Type} (b : α → EReal) : IsReal1 b ↔ ∃ h : α → ℝ, b = fun j => (h j : EReal) := by
  constructor
  · intro hH
    choose h hh using hH
    exact ⟨h, funext fun j => hh j⟩
  · rintro ⟨h, rfl⟩ j; exact ⟨h j, rfl⟩

/-! ## One layer: the two forms agree on real data, and the result is real -/

/-- The layer over the reals that both forms compute. -/
def layerR (g : ι → ν) (L : ν → Finset ι) (d : ν → ℝ) (h : ν → κ → ℝ) (w : κ → κ → ℝ) (b : κ → ℝ) (n : ν) (j : κ) : ℝ :=
  max ((∑ e ∈ L n, (∑ q, h (g e) q * w q j) * d (g e)) * d n + b j) 0

theorem factored_layer (g : ι → ν) (L : ν → Finset ι) (d : ν → ℝ) (h : ν → κ → ℝ) (w : κ → κ → ℝ) (b : κ → ℝ) :
    post (agg g L (pre (fun n j => (h n j : EReal)) (fun q j => (w q j : EReal)) (fun n => (d n : EReal))))
        (fun j => (b j : EReal)) (fun n => (d n : EReal))
      = fun n j => (layerR g L d h w b n j : EReal) := by
  funext n j
  simp only [post, agg, pre, lin, layerR, zero_add, ← EReal.coe_mul, ← coe_sum, ← EReal.coe_add]
  rw [← EReal.coe_zero, coe_max]

theorem edgewise_layer (g g' : ι → ν) (L : ν → Finset ι) (hL : ∀ n, ∀ e ∈ L n, g' e = n)
    (d : ν → ℝ) (h : ν → κ → ℝ) (w : κ → κ → ℝ) (b : κ → ℝ) :
    refLayer g g' L (fun n => (d n : EReal)) (fun n j => (h n j : EReal)) (fun q j => (w q j : EReal)) (fun j => (b j : EReal))
      = fun n j => (layerR g L d h w b n j : EReal) := by
  funext n j
  simp only [refLayer, lin, layerR, zero_add, ← EReal.coe_mul, ← coe_sum, ← EReal.coe_add]
  rw [← EReal.coe_zero, coe_max]
  refine congrArg (fun t : ℝ => ((max (t + b j) 0 : ℝ) : EReal)) ?_
  rw [Finset.sum_mul]
  refine Finset.sum_congr rfl fun e he => ?_
  rw [hL n e he]
  ring

/-! ## Two layers -/

/-- On real inputs and real scales the factored form and the edge-by-edge form of the two layers are one function. -/
theorem kernelOut_eq_refOut (g g' : ι → ν) (L : ν → Finset ι) (hL : ∀ n, ∀ e ∈ L n, g' e = n)
    (D : ν → EReal) (X : ν → κ → EReal) (W1 : κ → κ → EReal) (b1 : κ → EReal) (W2 : κ → κ → EReal) (b2 : κ → EReal)
    (hD : IsReal1 D) (hX : IsReal2 X) (hW1 : IsReal2 W1) (hb1 : IsReal1 b1) (hW2 : IsReal2 W2) (hb2 : IsReal1 b2) :
    kernelOut g L D X W1 b1 W2 b2 = refOut g g' L D X W1 b1 W2 b2 := by
  obtain ⟨d, rfl⟩ := (isReal1_iff D).mp hD
  obtain ⟨x, rfl⟩ := (isReal2_iff X).mp hX
  obtain ⟨w1, rfl⟩ := (isReal2_iff W1).mp hW1
  obtain ⟨c1, rfl⟩ := (isReal1_iff b1).mp hb1
  obtain ⟨w2, rfl⟩ := (isReal2_iff W2).mp hW2
  obtain ⟨c2, rfl⟩ := (isReal1_iff b2).mp hb2
  unfold kernelOut refOut
  rw [factored_layer g L d x w1 c1, edgewise_layer g g' L hL d x w1 c1,
    factored_layer g L d (layerR g L d x w1 c1) w2 c2, edgewise_layer g g' L hL d (layerR g L d x w1 c1) w2 c2]

end Cert.Gcn

end
-- ==== Proof.KernelValue.lean ====
/-
  What the idealized kernel returns, entry by entry: the factored form of the two graph-convolution layers.

  The boundaries' contents unwind from the result backwards. The result buffer is the third region's output, which at
  node `n` and feature `j` is `max (A₂ (n, j) · D n + b₂ j) 0` of the array `A₂` it finds; `A₂` is the host's gather of the
  second region's output by the sources and scatter-add by the targets, from zero: the sum over the edges landing on `n`;
  the second region's output is `(∑ q, max (A₁ (n, q) · D n + b₁ q) 0 · W₂ (q, j)) · D n` of the array `A₁` it finds; `A₁` is
  the same gather and scatter-add of the first region's output, `(∑ q, X (n, q) · W₁ (q, j)) · D n`. Here `D n` is the entry
  of the scale column, which is the scale vector's entry `n`, the same at every region's entry; the weights, biases and
  features are the arguments as launched; the sources and targets are what the first stretch computed.
-/
import proofs.«128793_j4432406249964_2_alg».proof.Proof.KernelBoundary
import proofs.«128793_j4432406249964_2_alg».proof.Proof.RegionValue
import proofs.«128793_j4432406249964_2_alg».proof.Proof.GcnHostOps
import proofs.«128793_j4432406249964_2_alg».proof.Proof.LibGcnLayer
import proofs.«128793_j4432406249964_2_alg».proof.Proof.LibKeepdims

set_option maxRecDepth 16384

noncomputable section

namespace Cert.KernelIdeal.KernelValue

open Cert.KernelIdeal Cert.KernelIdeal.Gen Cert.KernelIdeal.Boundary Cert.KernelIdeal.RegionValue
open Idealize.ShloMosaic Idealize.ShloMosaic.TcCoe Idealize.ShloMosaic.ValueIdx Idealize.SL.Sem
open Cert.Gcn

/-! ## One layer's host step at an entry -/

/-- Gathering the rows the sources name and scatter-adding them, from zero, into the rows the targets name gives, at
    `(n, j)`, zero plus the sum over the edges landing on `n` of the gathered entry. -/
theorem hostAgg_apply (sv dv : IVec S850000 32) (h : FVec Ideal S50000x96 .f32) (n : Fin 50000) (j : Fin 96) :
    hostAgg (F := Ideal) sv dv h (ix2 n j) = agg (gsrc sv) (lands dv) (fun n j => h (ix2 n j)) n j := by
  unfold hostAgg agg
  refine (HostOps.scatterRows_apply scatter_S50000x96_S850000x1_S850000x96_1_0_0_1.wf dv _ _
    (fun e => HostOps.rawCol_apply bcast_S850000_S850000x1_0 dv e) _ n j).trans ?_
  rw [HostOps.zeros2_apply bcast_S_S50000x96 (ix2 n j)]
  refine congrArg (fun t => (0 : EReal) + t) (Finset.sum_congr rfl fun e _ => ?_)
  exact HostOps.gatherRows_apply gather_S50000x96_S850000x1_S850000x96_1_0_n_n_0_1_196.wf sv h (gcol sv)
    (fun e => HostOps.wrapCol_apply bcast_S850000_S850000x1_0 bcast_S_S850000 sv e) e j

variable (m : (ℓ : Loc nD τ sig) → Buf (Elt Ideal) ℓ) (ρ : Dev nD → PrngReg)

/-! ## The names of the pieces -/

/-- The features, weights and biases as launched, by coordinates. -/
abbrev X (c : Dev nD) : Fin 50000 → Fin 96 → EReal := fun n k => m ((c : Thread nD τ).loc main_arg0) (ix2 n k)
abbrev W1 (c : Dev nD) : Fin 96 → Fin 96 → EReal := fun q j => m ((c : Thread nD τ).loc main_arg2) (ix2 q j)
abbrev b1 (c : Dev nD) : Fin 96 → EReal := fun j => m ((c : Thread nD τ).loc main_arg3) (ix1 j)
abbrev W2 (c : Dev nD) : Fin 96 → Fin 96 → EReal := fun q j => m ((c : Thread nD τ).loc main_arg4) (ix2 q j)
abbrev b2 (c : Dev nD) : Fin 96 → EReal := fun j => m ((c : Thread nD τ).loc main_arg5) (ix1 j)
/-- The scale vector, the sources and the targets as the first stretches leave them. -/
abbrev D (c : Dev nD) : Fin 50000 → EReal := fun n => Gen.W2 m ρ c (Proc.devRef .tc main_v14) (ix1 n)
abbrev sv (c : Dev nD) : IVec S850000 32 := Gen.W1 m ρ c (Proc.devRef .tc main_v5)
abbrev dv (c : Dev nD) : IVec S850000 32 := Gen.W1 m ρ c (Proc.devRef .tc main_v6)

/-- The scale column's entry `(n, 0)` is the scale vector's entry `n`. -/
theorem col_apply (c : Dev nD) (n : Fin 50000) :
    W3 m ρ c (Proc.devRef .tc main_v15) (ix2 n (0 : Fin 1)) = D m ρ c n :=
  (congrFun (W3_v15 m ρ c) (ix2 n (0 : Fin 1))).trans (Cert.LibKeepdims.shapeCast_a_a1_apply _ _ n 0)

/-! ## Region by region -/

/-- The first region's output: each node's transformed features, scaled by the node's scale. -/
theorem reg0_value (c : Dev nD) (n : Fin 50000) (j : Fin 96) :
    ((dat0 (F := Ideal) (V3 m ρ) c).arrAt 3 cfg0.N : S50000x96.Idx → EReal) (ix2 n j) = pre (X m c) (W1 m c) (D m ρ c) n j := by
  have hx : (V3 m ρ c main_arg0 : S50000x96.Idx → EReal) = m ((c : Thread nD τ).loc main_arg0) := W3_arg0 m ρ c
  have hw : (V3 m ρ c main_arg2 : S96x96.Idx → EReal) = m ((c : Thread nD τ).loc main_arg2) := W3_arg2 m ρ c
  have hs : (V3 m ρ c main_v15 : S50000x1.Idx → EReal) (ix2 n (0 : Fin 1)) = D m ρ c n := col_apply m ρ c n
  rw [final0, hx, hw, layer0_def, hs]
  rfl

/-- What the second region finds: the first region's output summed over the edges landing on each node. -/
theorem agg1_value (c : Dev nD) (n : Fin 50000) (j : Fin 96) :
    W5 m ρ c (Proc.devRef .tc main_v26) (ix2 n j)
      = agg (gsrc (sv m ρ c)) (lands (dv m ρ c)) (pre (X m c) (W1 m c) (D m ρ c)) n j := by
  rw [W5_v26, W4_s, W4_d, W4_v16, hostAgg_apply]
  exact congrArg (fun P => agg (gsrc (sv m ρ c)) (lands (dv m ρ c)) P n j)
    (funext fun n => funext fun j => reg0_value m ρ c n j)

/-- The second region's output. -/
theorem reg1_value (c : Dev nD) (n : Fin 50000) (j : Fin 96) :
    ((dat1 (F := Ideal) (V5 m ρ) c).arrAt 4 cfg1.N : S50000x96.Idx → EReal) (ix2 n j)
      = pre (post (agg (gsrc (sv m ρ c)) (lands (dv m ρ c)) (pre (X m c) (W1 m c) (D m ρ c))) (b1 m c) (D m ρ c)) (W2 m c) (D m ρ c) n j := by
  have hb : (V5 m ρ c main_arg3 : S96.Idx → EReal) = m ((c : Thread nD τ).loc main_arg3) := W5_arg3 m ρ c
  have hw : (V5 m ρ c main_arg4 : S96x96.Idx → EReal) = m ((c : Thread nD τ).loc main_arg4) := W5_arg4 m ρ c
  have hs : (V5 m ρ c main_v15 : S50000x1.Idx → EReal) (ix2 n (0 : Fin 1)) = D m ρ c n :=
    (congrFun (V5_v15 m ρ c) (ix2 n (0 : Fin 1))).trans (col_apply m ρ c n)
  have ha : ∀ q : Fin 96, (V5 m ρ c main_v26 : S50000x96.Idx → EReal) (ix2 n q)
      = agg (gsrc (sv m ρ c)) (lands (dv m ρ c)) (pre (X m c) (W1 m c) (D m ρ c)) n q := fun q => agg1_value m ρ c n q
  rw [final1, hb, hw, layer1_def, hs]
  simp only [ha]
  rfl

/-- What the third region finds. -/
theorem agg2_value (c : Dev nD) (n : Fin 50000) (j : Fin 96) :
    W7 m ρ c (Proc.devRef .tc main_v37) (ix2 n j)
      = agg (gsrc (sv m ρ c)) (lands (dv m ρ c))
          (pre (post (agg (gsrc (sv m ρ c)) (lands (dv m ρ c)) (pre (X m c) (W1 m c) (D m ρ c))) (b1 m c) (D m ρ c)) (W2 m c) (D m ρ c)) n j := by
  rw [W7_v37, W6_s, W6_d, W6_v27, hostAgg_apply]
  exact congrArg (fun P => agg (gsrc (sv m ρ c)) (lands (dv m ρ c)) P n j)
    (funext fun n => funext fun j => reg1_value m ρ c n j)

/-- The result buffer at the last boundary is the factored form of the two layers. -/
theorem kernel_value (c : Dev nD) (n : Fin 50000) (j : Fin 96) :
    W8 m ρ c (Proc.devRef .tc main_v38) (ix2 n j)
      = kernelOut (gsrc (sv m ρ c)) (lands (dv m ρ c)) (D m ρ c) (X m c) (W1 m c) (b1 m c) (W2 m c) (b2 m c) n j := by
  have h8 : W8 m ρ c (Proc.devRef .tc main_v38) (ix2 n j)
      = ((dat2 (F := Ideal) (V7 m ρ) c).arrAt 3 cfg2.N : S50000x96.Idx → EReal) (ix2 n j) :=
    congrFun (W8_arr m ρ c 3) (ix2 n j)
  have hb : (V7 m ρ c main_arg5 : S96.Idx → EReal) = m ((c : Thread nD τ).loc main_arg5) := W7_arg5 m ρ c
  have hs : (V7 m ρ c main_v15 : S50000x1.Idx → EReal) (ix2 n (0 : Fin 1)) = D m ρ c n :=
    (congrFun (V7_v15 m ρ c) (ix2 n (0 : Fin 1))).trans (col_apply m ρ c n)
  have ha : (V7 m ρ c main_v37 : S50000x96.Idx → EReal) (ix2 n j) = _ := agg2_value m ρ c n j
  rw [h8, final2, hb, layer2_def, hs, ha]
  rfl

end Cert.KernelIdeal.KernelValue

end
-- ==== Proof.Bridge.lean ====
/-
  The three host values both programs share.

  Before any layer each program computes, from the edge array alone: the vector of source endpoints (the edge array's
  first row followed by the self loops 0 … 49999), the vector of target endpoints (its second row followed by the same
  self loops), and the per-node scale (the number of edges landing on a node, by a scatter-add of ones; its inverse square
  root where it is positive and zero elsewhere). The two programs write the same operations with the same literals, so
  what the idealized kernel's first stretches leave in those three buffers is, as a term, the reference's stage of the same
  edge array.
-/
import proofs.«128793_j4432406249964_2_alg».proof.Proof.Gen.KernelIdeal.Frame
import proofs.«128793_j4432406249964_2_alg».proof.Proof.RefReadP
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The sources, as the kernel's first stretch leaves them, are the reference's stage of the kernel's edge array. -/
theorem src_eq (c : Dev nD) : W1 m ρ c (Proc.devRef .tc main_v5)
    = Cert.ReferenceIdeal.ReadP.val_main_v6 (F := Ideal) (m ((c : Thread nD τ).loc main_arg1)) := by
  show StableHlo.after hostOps0 (W0 m ρ c) (Proc.devRef .tc main_v5) = _
  after_results
  rfl

/-- The targets likewise. -/
theorem dst_eq (c : Dev nD) : W1 m ρ c (Proc.devRef .tc main_v6)
    = Cert.ReferenceIdeal.ReadP.val_main_v7 (F := Ideal) (m ((c : Thread nD τ).loc main_arg1)) := by
  show StableHlo.after hostOps0 (W0 m ρ c) (Proc.devRef .tc main_v6) = _
  after_results
  rfl

/-- The per-node scale likewise: the comparison, the inverse square root and the zero it selects among come from the
    first stretch, the selection from the second. -/
theorem scale_eq (c : Dev nD) : W2 m ρ c (Proc.devRef .tc main_v14)
    = Cert.ReferenceIdeal.ReadP.val_main_v15 (F := Ideal) (m ((c : Thread nD τ).loc main_arg1)) := by
  have h12 : W1 m ρ c (Proc.devRef .tc main_v12)
      = Cert.ReferenceIdeal.ReadP.val_main_v13 (F := Ideal) (m ((c : Thread nD τ).loc main_arg1)) := by
    show StableHlo.after hostOps0 (W0 m ρ c) (Proc.devRef .tc main_v12) = _
    after_results
    rfl
  have h13 : W1 m ρ c (Proc.devRef .tc main_v13)
      = Cert.ReferenceIdeal.ReadP.val_main_v14 (F := Ideal) (m ((c : Thread nD τ).loc main_arg1)) := by
    show StableHlo.after hostOps0 (W0 m ρ c) (Proc.devRef .tc main_v13) = _
    after_results
    rfl
  have hc2 : W1 m ρ c (Proc.devRef .tc main_cst_2) = Cert.ReferenceIdeal.ReadP.val_main_cst_2 (F := Ideal) := by
    show StableHlo.after hostOps0 (W0 m ρ c) (Proc.devRef .tc main_cst_2) = _
    after_results
    rfl
  have h14 : W2 m ρ c (Proc.devRef .tc main_v14)
      = select (W1 m ρ c (Proc.devRef .tc main_v12)) (W1 m ρ c (Proc.devRef .tc main_v13))
          (broadcastInDim S50000 ![] bcast_S_S50000 (id (W1 m ρ c (Proc.devRef .tc main_cst_2)))) := by
    show StableHlo.after hostOps0_1 (W1 m ρ c) (Proc.devRef .tc main_v14) = _
    generalize W1 m ρ c = X
    after_results
    rfl
  rw [h14, h12, h13, hc2]
  rfl

end Cert.Bridge

end
-- ==== Proof.RefValue.lean ====
/-
  The reference program's result, read at an entry, is the edge-by-edge form of the two graph-convolution layers.

  The reference computes, for the source and target words s, d of the 850000 edges and the per-node scale D,
  one layer of features H with weights W and bias b as
      relu( scatter-add over d of ( (D[s] · D[d]) broadcast along the features · (H·W)[s] )  +  b ),
  where X[s] is a gather by the normalised column of s and the scatter-add takes the raw column of d into zeros.
  Read at entry (n, j): the scatter-add is 0 plus the sum over the edges landing on n; an edge's update is the
  product of the two gathered scales times the gathered row of the matrix product; a gather by a normalised column
  reads row gsrc; the matrix product at an entry is the sum over the contracted axis. That is refLayer, factor for
  factor. The program applies the layer twice; the second time it recomputes s, d and D by the same operations
  on the same argument, so they are the same vectors.
-/
import proofs.«128793_j4432406249964_2_alg».proof.Proof.RefReadP
import proofs.«128793_j4432406249964_2_alg».proof.Proof.LibGcnLayer
import proofs.«128793_j4432406249964_2_alg».proof.Proof.GcnIndex
import proofs.«128793_j4432406249964_2_alg».proof.Proof.GcnHostOps
import proofs.«128793_j4432406249964_2_alg».proof.Proof.LibPlainDot

noncomputable section

namespace Cert.ReferenceIdeal.RefValue

open Cert.ReferenceIdeal Cert.ReferenceIdeal.Gen Idealize.ShloMosaic Idealize.ShloMosaic.ValueIdx
open Cert.Gcn Cert.Gcn.HostOps

/-! ## The pieces of one layer, over variable vectors -/

/-- The normalised column of a vector of edge words: what a gather takes. -/
def wrapCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The raw column of a vector of edge words: what a scatter-add takes. -/
def rawCol (v : IVec S850000 32) : IVec S850000x1 32 :=
  broadcastInDim S850000x1 ![0] bcast_S850000_S850000x1_0 v

/-- The zero matrix the scatter-add accumulates into, and the rectifier compares with. -/
def zeros2 : FVec Ideal S50000x96 .f32 :=
  broadcastInDim S50000x96 ![] bcast_S_S50000x96 (constant (F := Ideal) S_ .f32 0x00000000#32)

/-- The per-edge normalisation D[s] · D[d], as a vector over the edges. -/
def norm (D : FVec Ideal S50000 .f32) (s d : IVec S850000 32) : FVec Ideal S850000 .f32 :=
  mulf (Host.gather gather_S50000_S850000x1_S850000_n_0_n_n_0_1_1 D (wrapCol s))
    (Host.gather gather_S50000_S850000x1_S850000_n_0_n_n_0_1_1 D (wrapCol d))

/-- One layer as the reference computes it. -/
def layer (H : FVec Ideal S50000x96 .f32) (W : FVec Ideal S96x96 .f32) (b : FVec Ideal S96 .f32)
    (D : FVec Ideal S50000 .f32) (s d : IVec S850000 32) : FVec Ideal S50000x96 .f32 :=
  maximumf
    (addf
      (Host.scatterAdd scatter_S50000x96_S850000x1_S850000x96_1_0_0_1 zeros2 (rawCol d)
        (mulf
          (broadcastInDim S850000x96 ![0, 1] bcast_S850000x1_S850000x96_0_1
            (broadcastInDim S850000x1 ![0] bcast_S850000_S850000x1_0 (norm D s d)))
          (Host.gather gather_S50000x96_S850000x1_S850000x96_1_0_n_n_0_1_196
            (Host.dotGeneral dot_S50000x96_S96x96_S50000x96_1_0_0_1_n_n none H W) (wrapCol s))))
      (broadcastInDim S50000x96 ![0, 1] bcast_S1x96_S50000x96_0_1 (broadcastInDim S1x96 ![1] bcast_S96_S1x96_1 b)))
    zeros2

theorem wrapCol_at (v : IVec S850000 32) (e : Fin 850000) : wrapCol v (ix2 e (0 : Fin 1)) = wrapIdx (v (ix1 e)) :=
  wrapCol_apply bcast_S850000_S850000x1_0 bcast_S_S850000 v e

theorem rawCol_at (v : IVec S850000 32) (e : Fin 850000) : rawCol v (ix2 e (0 : Fin 1)) = v (ix1 e) :=
  rawCol_apply bcast_S850000_S850000x1_0 v e

theorem zeros2_at (i : S50000x96.Idx) : zeros2 i = 0 := zeros2_apply bcast_S_S50000x96 i

/-- The normalisation of edge e is the product of the scales of its two gathered nodes. -/
theorem norm_at (D : FVec Ideal S50000 .f32) (s d : IVec S850000 32) (e : Fin 850000) :
    norm D s d (ix1 e) = D (ix1 (gsrc s e)) * D (ix1 (gsrc d e)) := by
  show Host.gather gather_S50000_S850000x1_S850000_n_0_n_n_0_1_1 D (wrapCol s) (ix1 e)
      * Host.gather gather_S50000_S850000x1_S850000_n_0_n_n_0_1_1 D (wrapCol d) (ix1 e) = _
  rw [show Host.gather gather_S50000_S850000x1_S850000_n_0_n_n_0_1_1 D (wrapCol s) (ix1 e) = D (ix1 (gsrc s e)) from
      gatherVec_apply gather_S50000_S850000x1_S850000_n_0_n_n_0_1_1_wf s D (wrapCol s) (wrapCol_at s) e,
    show Host.gather gather_S50000_S850000x1_S850000_n_0_n_n_0_1_1 D (wrapCol d) (ix1 e) = D (ix1 (gsrc d e)) from
      gatherVec_apply gather_S50000_S850000x1_S850000_n_0_n_n_0_1_1_wf d D (wrapCol d) (wrapCol_at d) e]

/-- A vector over the edges made a column and broadcast along the features reads the edge's entry. -/
theorem edgeBcast_at (x : FVec Ideal S850000 .f32) (e : Fin 850000) (j : Fin 96) :
    broadcastInDim S850000x96 ![0, 1] bcast_S850000x1_S850000x96_0_1
        (broadcastInDim S850000x1 ![0] bcast_S850000_S850000x1_0 x) (ix2 e j) = x (ix1 e) := by
  refine (broadcastInDim_apply _ bcast_S850000x1_S850000x96_0_1 _ (ix2 e j) (ix2 e (0 : Fin 1)) (fun a => match a with
    | ⟨0, _⟩ => by show e.val = if (850000 : Nat) = 1 then 0 else e.val; rw [if_neg (by decide)]
    | ⟨1, _⟩ => by show 0 = if (1 : Nat) = 1 then 0 else j.val; rw [if_pos rfl])).trans ?_
  exact rawCol_apply bcast_S850000_S850000x1_0 x e

/-- The bias made a row and broadcast down the nodes reads the feature's entry. -/
theorem bias_at (b : FVec Ideal S96 .f32) (n : Fin 50000) (j : Fin 96) :
    broadcastInDim S50000x96 ![0, 1] bcast_S1x96_S50000x96_0_1 (broadcastInDim S1x96 ![1] bcast_S96_S1x96_1 b) (ix2 n j)
      = b (ix1 j) := by
  refine (broadcastInDim_apply _ bcast_S1x96_S50000x96_0_1 _ (ix2 n j) (ix2 (0 : Fin 1) j) (fun a => match a with
    | ⟨0, _⟩ => by show 0 = if (1 : Nat) = 1 then 0 else n.val; rw [if_pos rfl]
    | ⟨1, _⟩ => by show j.val = if (96 : Nat) = 1 then 0 else j.val; rw [if_neg (by decide)])).trans ?_
  exact broadcastInDim_apply _ bcast_S96_S1x96_1 b (ix2 (0 : Fin 1) j) (ix1 j) (fun a => match a with
    | ⟨0, _⟩ => by show j.val = if (96 : Nat) = 1 then 0 else j.val; rw [if_neg (by decide)])

/-- The gathered row of the matrix product, at (e, j): the product's entry at the edge's gathered node. -/
theorem gatherLin_at (H : FVec Ideal S50000x96 .f32) (W : FVec Ideal S96x96 .f32) (s : IVec S850000 32)
    (e : Fin 850000) (j : Fin 96) :
    Host.gather gather_S50000x96_S850000x1_S850000x96_1_0_n_n_0_1_196
        (Host.dotGeneral dot_S50000x96_S96x96_S50000x96_1_0_0_1_n_n none H W) (wrapCol s) (ix2 e j)
      = lin (fun n k => H (ix2 n k)) (fun q j => W (ix2 q j)) (gsrc s e) j := by
  refine (gatherRows_apply gather_S50000x96_S850000x1_S850000x96_1_0_n_n_0_1_196_wf s
    (Host.dotGeneral dot_S50000x96_S96x96_S50000x96_1_0_0_1_n_n none H W) (wrapCol s) (wrapCol_at s) e j).trans ?_
  exact Cert.PlainDot.dotGeneral_ix2 dot_S50000x96_S96x96_S50000x96_1_0_0_1_n_n rfl none H W (gsrc s e) j

/-- One layer of the reference at entry (n, j) is the edge-by-edge layer. Each operation is read at the index by its
    own lemma, outermost first: the rectifier, the sum with the bias, the scatter-add (0 plus the sum over the edges
    landing on n), the product of the broadcast normalisation and the gathered row. -/
theorem layer_apply (H : FVec Ideal S50000x96 .f32) (W : FVec Ideal S96x96 .f32) (b : FVec Ideal S96 .f32)
    (D : FVec Ideal S50000 .f32) (s d : IVec S850000 32) (n : Fin 50000) (j : Fin 96) :
    layer H W b D s d (ix2 n j)
      = refLayer (gsrc s) (gsrc d) (lands d) (fun n => D (ix1 n)) (fun n k => H (ix2 n k)) (fun q j => W (ix2 q j))
          (fun j => b (ix1 j)) n j := by
  unfold layer refLayer
  refine (maximumf_apply _ _ _).trans ?_
  rw [zeros2_at]
  refine congrArg (fun t : EReal => max t 0) ?_
  refine (addf_apply _ _ _).trans ?_
  rw [bias_at]
  refine congrArg (fun t : EReal => t + b (ix1 j)) ?_
  refine (scatterRows_apply scatter_S50000x96_S850000x1_S850000x96_1_0_0_1_wf d zeros2 (rawCol d) (rawCol_at d) _ n j).trans ?_
  rw [zeros2_at]
  refine congrArg (fun t : EReal => 0 + t) (Finset.sum_congr rfl fun e _ => ?_)
  refine (mulf_apply _ _ _).trans ?_
  rw [edgeBcast_at, norm_at, gatherLin_at]

/-! ## The two layers of the program are that layer, twice -/

section Stages

variable (x0 : (⟨S50000x96, .f32⟩ : BufTy).Contents (Elt Ideal)) (x1 : (⟨S2x800000, .i32⟩ : BufTy).Contents (Elt Ideal))
  (x2 : (⟨S96x96, .f32⟩ : BufTy).Contents (Elt Ideal)) (x3 : (⟨S96, .f32⟩ : BufTy).Contents (Elt Ideal))
  (x4 : (⟨S96x96, .f32⟩ : BufTy).Contents (Elt Ideal)) (x5 : (⟨S96, .f32⟩ : BufTy).Contents (Elt Ideal))

/-- The first rectified stage is the layer of the input features with the first weights and bias, the scale D, and
    the source and target words s, d. -/
theorem layer1_eq :
    ReadP.val_main_v47 (F := Ideal) x0 x1 x2 x3
      = layer x0 x2 x3 (ReadP.val_main_v15 (F := Ideal) x1) (ReadP.val_main_v6 (F := Ideal) x1) (ReadP.val_main_v7 (F := Ideal) x1) := by
  unfold ReadP.val_main_v47 ReadP.val_main_v46 ReadP.val_main_v45 ReadP.val_main_v44 ReadP.val_main_v43 ReadP.val_main_v42
    ReadP.val_main_v41 ReadP.val_main_v40 ReadP.val_main_v39 ReadP.val_main_v38 ReadP.val_main_v37 ReadP.val_main_v36
    ReadP.val_main_v35 ReadP.val_main_v34 ReadP.val_main_v33 ReadP.val_main_v32 ReadP.val_main_v31 ReadP.val_main_v30
    ReadP.val_main_v29 ReadP.val_main_v28 ReadP.val_main_v27 ReadP.val_main_v26 ReadP.val_main_v25 ReadP.val_main_v24
    ReadP.val_main_v23 ReadP.val_main_v22 ReadP.val_main_v21 ReadP.val_main_v20 ReadP.val_main_v19 ReadP.val_main_v18
    ReadP.val_main_v17 ReadP.val_main_v16 ReadP.val_main_v4 ReadP.val_main_c ReadP.val_main_c_3 ReadP.val_main_c_4
    ReadP.val_main_c_5 ReadP.val_main_c_6 ReadP.val_main_c_7 ReadP.val_main_cst_8 ReadP.val_main_call1_v0
    ReadP.val_main_call1_cst layer norm wrapCol rawCol zeros2
  with_reducible rfl

/-- The second layer's source words are the first layer's: the same concatenation of the same pieces. -/
theorem src2_eq : ReadP.val_main_v50 (F := Ideal) x1 = ReadP.val_main_v6 (F := Ideal) x1 := by
  unfold ReadP.val_main_v50 ReadP.val_main_v6 ReadP.val_main_v49 ReadP.val_main_v5
  with_reducible rfl

/-- … and so are its target words. -/
theorem dst2_eq : ReadP.val_main_v51 (F := Ideal) x1 = ReadP.val_main_v7 (F := Ideal) x1 := by
  unfold ReadP.val_main_v51 ReadP.val_main_v7 ReadP.val_main_v49 ReadP.val_main_v5
  with_reducible rfl

/-- … and its scale D: the same degree count over the same target words, the same inverse square root and guard. -/
theorem scale2_eq : ReadP.val_main_v59 (F := Ideal) x1 = ReadP.val_main_v15 (F := Ideal) x1 := by
  unfold ReadP.val_main_v59 ReadP.val_main_v58 ReadP.val_main_v57 ReadP.val_main_v56 ReadP.val_main_v55 ReadP.val_main_v54
    ReadP.val_main_v53 ReadP.val_main_v52 ReadP.val_main_call2_v1 ReadP.val_main_call2_v0 ReadP.val_main_cst_12
    ReadP.val_main_cst_11 ReadP.val_main_cst_10 ReadP.val_main_cst_9
    ReadP.val_main_v15 ReadP.val_main_v14 ReadP.val_main_v13 ReadP.val_main_v12 ReadP.val_main_v11 ReadP.val_main_v10
    ReadP.val_main_v9 ReadP.val_main_v8 ReadP.val_main_call0_v1 ReadP.val_main_call0_v0 ReadP.val_main_cst_2
    ReadP.val_main_cst_1 ReadP.val_main_cst_0 ReadP.val_main_cst
  rw [dst2_eq]

/-- The result is the layer of the first rectified stage with the second weights and bias, over the recomputed
    scale and words. -/
theorem layer2_eq :
    ReadP.val_main_v91 (F := Ideal) x0 x1 x2 x3 x4 x5
      = layer (ReadP.val_main_v47 (F := Ideal) x0 x1 x2 x3) x4 x5 (ReadP.val_main_v59 (F := Ideal) x1)
          (ReadP.val_main_v50 (F := Ideal) x1) (ReadP.val_main_v51 (F := Ideal) x1) := by
  unfold ReadP.val_main_v91 ReadP.val_main_v90 ReadP.val_main_v89 ReadP.val_main_v88 ReadP.val_main_v87 ReadP.val_main_v86
    ReadP.val_main_v85 ReadP.val_main_v84 ReadP.val_main_v83 ReadP.val_main_v82 ReadP.val_main_v81 ReadP.val_main_v80
    ReadP.val_main_v79 ReadP.val_main_v78 ReadP.val_main_v77 ReadP.val_main_v76 ReadP.val_main_v75 ReadP.val_main_v74
    ReadP.val_main_v73 ReadP.val_main_v72 ReadP.val_main_v71 ReadP.val_main_v70 ReadP.val_main_v69 ReadP.val_main_v68
    ReadP.val_main_v67 ReadP.val_main_v66 ReadP.val_main_v65 ReadP.val_main_v64 ReadP.val_main_v63 ReadP.val_main_v62
    ReadP.val_main_v61 ReadP.val_main_v60 ReadP.val_main_v48 ReadP.val_main_c_13 ReadP.val_main_c_14 ReadP.val_main_c_15
    ReadP.val_main_c_16 ReadP.val_main_c_17 ReadP.val_main_c_18 ReadP.val_main_cst_19 ReadP.val_main_call3_v0
    ReadP.val_main_call3_cst layer norm wrapCol rawCol zeros2
  with_reducible rfl

/-- The reference's result at entry (n, j) is the edge-by-edge form of the two layers, over the source words s, the
    target words d and the scale D as the program computes them from the edge list. -/
theorem ref_apply (n : Fin 50000) (j : Fin 96) :
    ReadP.val_main_v91 (F := Ideal) x0 x1 x2 x3 x4 x5 (ix2 n j)
      = refOut (gsrc (ReadP.val_main_v6 (F := Ideal) x1)) (gsrc (ReadP.val_main_v7 (F := Ideal) x1))
          (lands (ReadP.val_main_v7 (F := Ideal) x1)) (fun n => ReadP.val_main_v15 (F := Ideal) x1 (ix1 n))
          (fun n k => x0 (ix2 n k)) (fun q j => x2 (ix2 q j)) (fun j => x3 (ix1 j)) (fun q j => x4 (ix2 q j))
          (fun j => x5 (ix1 j)) n j := by
  rw [layer2_eq, src2_eq, dst2_eq, scale2_eq, layer_apply]
  unfold refOut
  refine congrArg (fun Hh : Fin 50000 → Fin 96 → EReal =>
    refLayer (gsrc (ReadP.val_main_v6 (F := Ideal) x1)) (gsrc (ReadP.val_main_v7 (F := Ideal) x1))
      (lands (ReadP.val_main_v7 (F := Ideal) x1)) (fun n => ReadP.val_main_v15 (F := Ideal) x1 (ix1 n)) Hh
      (fun q j => x4 (ix2 q j)) (fun j => x5 (ix1 j)) n j) ?_
  funext n' k
  rw [layer1_eq, layer_apply]

end Stages

end Cert.ReferenceIdeal.RefValue

end
-- ==== Proof.ScaleReal.lean ====
/-
  The per-node scale is a real number at every node.

  The degree of node `n` is zero plus a one for every edge landing on it: a finite sum of ones, a real number `k ≥ 0`.
  The scale is the inverse square root of the degree where the degree is positive and zero elsewhere. The inverse square
  root of a positive real is a real (on the extended reals it is +∞ only at zero and −∞ only below zero, which the
  comparison excludes), and zero is a real.
-/
import proofs.«128793_j4432406249964_2_alg».proof.Proof.RefReadP
import proofs.«128793_j4432406249964_2_alg».proof.Proof.GcnHostOps
import proofs.«128793_j4432406249964_2_alg».proof.Proof.LibGcnLayer

noncomputable section

namespace Cert.ReferenceIdeal.ScaleReal

open Cert.ReferenceIdeal Cert.ReferenceIdeal.Gen Cert.ReferenceIdeal.ReadP
open Idealize.ShloMosaic Idealize.ShloMosaic.ValueIdx Cert.Gcn

/-- The word of 1.0 denotes 1. -/
theorem ofBits_one_f32 : Ideal.ofBits .f32 0x3F800000#32 = (1 : EReal) := by
  simp [Ideal.ofBits, Ideal.ieee]
  rw [← EReal.coe_mul]
  norm_num

/-- For a real degree, "its inverse square root if it is positive, else zero" is a real number. -/
theorem select_rsqrt_real (d : ℝ) :
    ∃ r : ℝ, Scalar.select (FloatOps.cmpf (F := Ideal) (φ := .f32) .ogt (d : EReal) (0 : EReal))
      (FloatOps.hostUnary (F := Ideal) (φ := .f32) .rsqrt (d : EReal)) (0 : EReal) = (r : EReal) := by
  by_cases h : 0 < d
  · have hc : FloatOps.cmpf (F := Ideal) (φ := .f32) .ogt (d : EReal) (0 : EReal) = 1#1 := by
      show BitVec.ofBool (decide ((0 : EReal) < (d : EReal))) = 1#1
      rw [decide_eq_true (EReal.coe_pos.mpr h)]
      rfl
    rw [hc, select_one, Ideal.hostUnary_rsqrt_def, Ideal.rsqrt_coe, if_neg (not_lt.mpr h.le), if_neg h.ne']
    exact ⟨_, rfl⟩
  · have hc : FloatOps.cmpf (F := Ideal) (φ := .f32) .ogt (d : EReal) (0 : EReal) = 0#1 := by
      show BitVec.ofBool (decide ((0 : EReal) < (d : EReal))) = 0#1
      rw [decide_eq_false (fun hh => h (EReal.coe_pos.mp hh))]
      rfl
    rw [hc, select_zero]
    exact ⟨0, EReal.coe_zero.symm⟩

/-- The degree of a node: zero plus a one for each edge landing on it, the number of those edges. -/
theorem degree_apply (x1 : (⟨S2x800000, .i32⟩ : BufTy).Contents (Elt Ideal)) (n : Fin 50000) :
    val_main_v11 (F := Ideal) x1 (ix1 n) = (((lands (val_main_v7 (F := Ideal) x1) n).card : ℝ) : EReal) := by
  unfold val_main_v11
  refine (HostOps.scatterVec_apply scatter_S50000_S850000x1_S850000_n_0_0_1.wf (val_main_v7 (F := Ideal) x1)
    (val_main_v9 (F := Ideal)) (val_main_v10 (F := Ideal) x1)
    (fun e => HostOps.rawCol_apply bcast_S850000_S850000x1_0 (val_main_v7 (F := Ideal) x1) e) (val_main_v8 (F := Ideal)) n).trans ?_
  have h9 : val_main_v9 (F := Ideal) (ix1 n) = 0 := HostOps.zeros1_apply bcast_S_S50000 (ix1 n)
  have h8 : ∀ e : Fin 850000, val_main_v8 (F := Ideal) (ix1 e) = (1 : EReal) := fun e =>
    (HostOps.ones_apply bcast_S_S850000 (ix1 e)).trans ofBits_one_f32
  rw [h9, zero_add, Finset.sum_congr rfl (fun e _ => (h8 e).trans EReal.coe_one.symm), ← coe_sum]
  refine congrArg (fun t : ℝ => (t : EReal)) ?_
  rw [Finset.sum_const, nsmul_eq_mul, mul_one]

/-- The scale of every node is a real number. -/
theorem scale_real (x1 : (⟨S2x800000, .i32⟩ : BufTy).Contents (Elt Ideal)) (n : Fin 50000) :
    ∃ r : ℝ, val_main_v15 (F := Ideal) x1 (ix1 n) = (r : EReal) := by
  have h12 : val_main_v12 (F := Ideal) (ix1 n) = 0 := HostOps.zeros1_apply bcast_S_S50000 (ix1 n)
  have hz : val_main_call0_v1 (F := Ideal) (ix1 n) = 0 := HostOps.zeros1_apply bcast_S_S50000 (ix1 n)
  rw [val_main_v15_apply, val_main_v13_apply, val_main_v14_apply, degree_apply, h12, hz]
  exact select_rsqrt_real _

end Cert.ReferenceIdeal.ScaleReal

end
-- ==== Proof.Finite.lean ====
/-
  From the precondition to "every entry is a real number".

  The precondition says, of each float argument, that every entry's absolute value is below the word 0x7F800000, which at
  the ideal instance denotes +∞; the five `all`s are joined by `and`. An extended real whose absolute value `max x (-x)`
  is below +∞ is neither +∞ nor −∞ (the absolute value of either is +∞), so it is a real number.
-/
import proofs.«128793_j4432406249964_2_alg».proof.Pre_finite_inputs
import proofs.«128793_j4432406249964_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.ShloMosaic.ValueIdx Cert.Pre_finite_inputs

/-- The word of +∞ denotes +∞. -/
theorem ofBits_inf_f32 : Ideal.ofBits .f32 0x7F800000#32 = (⊤ : EReal) := by simp [Ideal.ofBits, Ideal.ieee]

/-- An extended real whose absolute value compares below the word of +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : max x (-x) < (⊤ : EReal) := by
    by_contra hc
    have h0 : FloatOps.cmpf (F := Ideal) (φ := .f32) .olt (FloatOps.hostAbsf (F := Ideal) (φ := .f32) x) (FloatOps.ofBits (F := Ideal) .f32 0x7F800000#32) = 0#1 := by
      show BitVec.ofBool (decide (max x (-x) < Ideal.ofBits .f32 0x7F800000#32)) = 0#1
      rw [ofBits_inf_f32, decide_eq_false hc]
      rfl
    rw [h0] at h
    exact absurd h (by decide)
  induction x using EReal.rec with
  | bot => exact absurd h' (by simp)
  | coe r => exact ⟨r, rfl⟩
  | top => exact absurd h' (by simp)

instance : Subsingleton S_.Idx := ⟨fun a b => funext fun d => d.elim0⟩

/-- Under the precondition every entry of the five float arguments is a real number. -/
theorem real_of_pre (a0 : FVec Ideal S50000x96 .f32) (a1 : IVec S2x800000 32) (a2 : FVec Ideal S96x96 .f32)
    (a3 : FVec Ideal S96 .f32) (a4 : FVec Ideal S96x96 .f32) (a5 : FVec Ideal S96 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [fn, fn_part1] at h0
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  exact ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i)⟩

end Cert.Finite

end
-- ==== Proof.Algebraic.lean ====
/-
  The two idealized programs, from memories agreeing on the arguments, end with equal results.

  The kernel's result is the factored form of the two layers (`Cert.Gcn.kernelOut`) of the features, weights and biases as
  launched, the scale, and the rows the gathers read and the scatter-adds land on; the reference's is the edge-by-edge form
  (`Cert.Gcn.refOut`) of the same things: the sources, the targets and the scale are one term in both programs. An edge
  that lands on node `n` is read at node `n` by the gather of the targets' scale. Under the precondition every entry of the
  five float arguments is real, and the scale is real at every node whatever the edge array holds; so the two forms agree.
-/
import proofs.«128793_j4432406249964_2_alg».proof.Defs
import proofs.«128793_j4432406249964_2_alg».proof.Proof.KernelRun
import proofs.«128793_j4432406249964_2_alg».proof.Proof.KernelValue
import proofs.«128793_j4432406249964_2_alg».proof.Proof.Bridge
import proofs.«128793_j4432406249964_2_alg».proof.Proof.RefValue
import proofs.«128793_j4432406249964_2_alg».proof.Proof.ScaleReal
import proofs.«128793_j4432406249964_2_alg».proof.Proof.Finite
import proofs.«128793_j4432406249964_2_alg».proof.Proof.LibGcnLayer
import proofs.«128793_j4432406249964_2_alg».proof.Proof.GcnIndex
import proofs.«128793_j4432406249964_2_alg».proof.Proof.Gen.Pre_finite_inputs

set_option maxRecDepth 16384

noncomputable section

namespace Cert.Algebraic

open Idealize.ShloMosaic Idealize.ShloMosaic.TcCoe Idealize.ShloMosaic.ValueIdx Idealize.SL.Sem
open Cert.Gcn

/-- The kernel's result entry is the reference's result entry, both read at the kernel's arguments. -/
theorem value_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD)
    (n : Fin 50000) (j : Fin 96) :
    Cert.ReferenceIdeal.ReadP.val_main_v91 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (ix2 n j)
      = Cert.KernelIdeal.Gen.W8 m ρ c (Proc.devRef .tc Cert.KernelIdeal.main_v38) (ix2 n j) := by
  obtain ⟨h0, h2, h3, h4, h5⟩ := Cert.Finite.real_of_pre _ _ _ _ _ _ (hpre c)
  have hs : Cert.KernelIdeal.KernelValue.sv m ρ c
      = Cert.ReferenceIdeal.ReadP.val_main_v6 (F := Ideal) (m ((c.tc : Thread Cert.KernelIdeal.nD Cert.KernelIdeal.τ).loc Cert.KernelIdeal.main_arg1)) :=
    Cert.Bridge.src_eq m ρ c
  have hd : Cert.KernelIdeal.KernelValue.dv m ρ c
      = Cert.ReferenceIdeal.ReadP.val_main_v7 (F := Ideal) (m ((c.tc : Thread Cert.KernelIdeal.nD Cert.KernelIdeal.τ).loc Cert.KernelIdeal.main_arg1)) :=
    Cert.Bridge.dst_eq m ρ c
  have hD : Cert.KernelIdeal.KernelValue.D m ρ c
      = fun n => Cert.ReferenceIdeal.ReadP.val_main_v15 (F := Ideal) (m ((c.tc : Thread Cert.KernelIdeal.nD Cert.KernelIdeal.τ).loc Cert.KernelIdeal.main_arg1)) (ix1 n) :=
    funext fun n => congrFun (Cert.Bridge.scale_eq m ρ c) (ix1 n)
  rw [Cert.ReferenceIdeal.RefValue.ref_apply, Cert.KernelIdeal.KernelValue.kernel_value m ρ c n j, hs, hd, hD]
  refine (congrFun (congrFun (kernelOut_eq_refOut _ _ _ (fun n e he => gsrc_of_mem_lands _ n e he) _ _ _ _ _ _
    (fun n => Cert.ReferenceIdeal.ScaleReal.scale_real _ n)
    (fun n k => h0 (ix2 n k)) (fun q j => h2 (ix2 q j)) (fun j => h3 (ix1 j)) (fun q j => h4 (ix2 q j)) (fun j => h5 (ix1 j))) n) j).symm

/-- The algebraic claim. -/
theorem algebraic : Cert.algebraic_KernelIdeal_ReferenceIdeal := by
  intro m ρ m' ρ' hpre hagree
  refine ⟨fun c => Cert.KernelIdeal.Gen.W8 m ρ c (Proc.devRef .tc Cert.KernelIdeal.main_v38),
    Cert.KernelIdeal.Gen.run_result m ρ, ?_⟩
  refine (θ_run Cert.ReferenceIdeal.defs _ _).mono (fun r h c => ⟨(h c).1.trans ?_, (h c).2⟩)
    (Cert.ReferenceIdeal.ValueP.run (F := Ideal) m' ρ')
  obtain ⟨a0, a1, a2, a3, a4, a5⟩ := hagree c
  rw [Cert.ReferenceIdeal.ReadP.val_main_v91_eq, a0, a1, a2, a3, a4, a5]
  funext i
  obtain ⟨n, j, rfl⟩ : ∃ (n : Fin 50000) (j : Fin 96), i = ix2 n j := ⟨i 0, i 1, eq_ix2 i⟩
  exact value_eq m ρ hpre c n j

end Cert.Algebraic

end
-- ==== Proof.lean ====
/-
  The proof of `Cert.Claim`: a two-layer graph convolution with symmetric degree normalisation, the kernel against its
  reference, equal entry by entry on the extended reals under the precondition that every float input is finite.

  The kernel does each layer's dense work in three pallas_calls over blocks of 5000 nodes and leaves the gather of source
  rows and the scatter-add into target rows to the host. Where the reference scales every edge's message by
  `D[source] · D[target]`, the kernel scales each node's transformed features once by the node's own `D` before the host
  sums the messages, and scales the sum landing on a node once by that node's `D` after: the factor `D[target]` is the same
  for every edge landing on a node and comes out of the sum. That is distributivity, which on the extended reals needs
  every summand real; finiteness of the inputs gives it (the degree, a finite sum of ones, and its inverse square root
  where it is positive, are real whatever the edge array holds).

  The three frames are the generated frame certificates of the two kernel programs and the reference's run with its
  result dropped; no operation of the kernel is rewritten by the idealization, so nothing is owed for it; the equality
  of the two idealized programs is `Cert.Algebraic.algebraic`.
-/
import proofs.«128793_j4432406249964_2_alg».proof.Defs
import proofs.«128793_j4432406249964_2_alg».proof.Proof.Gen.Kernel
import proofs.«128793_j4432406249964_2_alg».proof.Proof.Gen.Kernel.Frame
import proofs.«128793_j4432406249964_2_alg».proof.Proof.Gen.KernelIdeal
import proofs.«128793_j4432406249964_2_alg».proof.Proof.Gen.KernelIdeal.Frame
import proofs.«128793_j4432406249964_2_alg».proof.Proof.Gen.ReferenceIdeal
import proofs.«128793_j4432406249964_2_alg».proof.Proof.Gen.Pre_finite_inputs
import proofs.«128793_j4432406249964_2_alg».proof.Proof.RefRunP
import proofs.«128793_j4432406249964_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.ValueP.run (F := Ideal) m ρ),
    trivial,
    Cert.Algebraic.algebraic⟩

end Cert.Proof

end
